-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x32 : Shape := ⟨2, ![800000, 32]⟩
abbrev S32x96 : Shape := ⟨2, ![32, 96]⟩
abbrev S96 : Shape := ⟨1, ![96]⟩
abbrev S96x96 : Shape := ⟨2, ![96, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S32x96 : S_.BroadcastsInDim S32x96 (![] : Fin 0 → Fin S32x96.rank)
  reducesTo_S32x96_S_d0_1 : S32x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_

variable [Facts]

def fn_part2 {F : FTy → Type} [FloatOps F] (main_arg8 : FVec F S96 .f32) (main_arg9 : FVec F S96 .f32) (main_arg10 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  main_v48

def fn_part1 {F : FTy → Type} [FloatOps F] (main_arg5 : FVec F S96x96 .f32) (main_arg6 : FVec F S96 .f32) (main_arg7 : FVec F S96x96 .f32) (main_arg8 : FVec F S96 .f32) (main_arg9 : FVec F S96 .f32) (main_arg10 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x96 .f32) (main_arg1 : IVec S2x800000 32) (main_arg2 : FVec F S800000x32 .f32) (main_arg3 : FVec F S32x96 .f32) (main_arg4 : FVec F S96 .f32) (main_arg5 : FVec F S96x96 .f32) (main_arg6 : FVec F S96 .f32) (main_arg7 : FVec F S96x96 .f32) (main_arg8 : FVec F S96 .f32) (main_arg9 : FVec F S96 .f32) (main_arg10 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S32x96 .f32 := Host.absf main_arg3
  let main_cst_2 : FVec F S_ .f32 := constant S_ .f32 0x7F800000#32
  let main_v10 : FVec F S32x96 .f32 := broadcastInDim S32x96 ![] bcast_S_S32x96 main_cst_2
  let main_v11 : IVec S32x96 1 := cmpf .olt main_v9 main_v10
  let main_c_3 : IVec S_ 1 := constantI S_ 1 1#1
  let main_v12 : IVec S_ 1 := (fun x v => Host.reduce IntOp.andi x v reducesTo_S32x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_v13 main_v16
-- ==== Kernel.lean ====
abbrev S50000x96 : Shape := ⟨2, ![50000, 96]⟩
abbrev S2x800000 : Shape := ⟨2, ![2, 800000]⟩
abbrev S800000x32 : Shape := ⟨2, ![800000, 32]⟩
abbrev S32x96 : Shape := ⟨2, ![32, 96]⟩
abbrev S96 : Shape := ⟨1, ![96]⟩
abbrev S96x96 : Shape := ⟨2, ![96, 96]⟩
abbrev S1x800000 : Shape := ⟨2, ![1, 800000]⟩
abbrev S800000 : Shape := ⟨1, ![800000]⟩
abbrev S800000x96 : Shape := ⟨2, ![800000, 96]⟩
abbrev S1x96 : Shape := ⟨2, ![1, 96]⟩
abbrev S_ : Shape := ⟨0, ![]⟩
abbrev S800000x1 : Shape := ⟨2, ![800000, 1]⟩
abbrev S5000x96 : Shape := ⟨2, ![5000, 96]⟩

abbrev nBuf : Space → Nat
  | .hbm => 58
  | .vmem => 22
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x32, .f32⟩
  | .hbm, ⟨3, _⟩ => ⟨S32x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S800000x96, .f32⟩
  | .hbm, ⟨16, _⟩ => ⟨S1x96, .f32⟩
  | .hbm, ⟨17, _⟩ => ⟨S800000x96, .f32⟩
  | .hbm, ⟨18, _⟩ => ⟨S800000x96, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x96, .f32⟩
  | .hbm, ⟨28, _⟩ => ⟨S800000x96, .f32⟩
  | .hbm, ⟨29, _⟩ => ⟨S_, .f32⟩
  | .hbm, ⟨30, _⟩ => ⟨S800000x96, .f32⟩
  | .hbm, ⟨31, _⟩ => ⟨S800000x96, .f32⟩
  | .hbm, ⟨32, _⟩ => ⟨S_, .f32⟩
  | .hbm, ⟨33, _⟩ => ⟨S50000x96, .f32⟩
  | .hbm, ⟨34, _⟩ => ⟨S800000x1, .i32⟩
  | .hbm, ⟨35, _⟩ => ⟨S50000x96, .f32⟩
  | .hbm, ⟨36, _⟩ => ⟨S96x96, .bf16⟩
  | .hbm, ⟨37, _⟩ => ⟨S96x96, .bf16⟩
  | .hbm, ⟨38, _⟩ => ⟨S1x96, .f32⟩
  | .hbm, ⟨39, _⟩ => ⟨S1x96, .f32⟩
  | .hbm, ⟨40, _⟩ => ⟨S50000x96, .f32⟩
  | .hbm, ⟨41, _⟩ => ⟨S1x96, .f32⟩
  | .hbm, ⟨42, _⟩ => ⟨S1x96, .f32⟩
  | .hbm, ⟨43, _⟩ => ⟨S96, .f32⟩
  | .hbm, ⟨44, _⟩ => ⟨S_, .f32⟩
  | .hbm, ⟨45, _⟩ => ⟨S96, .f32⟩
  | .hbm, ⟨46, _⟩ => ⟨S96, .f32⟩
  | .hbm, ⟨47, _⟩ => ⟨S96, .f32⟩
  | .hbm, ⟨48, _⟩ => ⟨S_, .f32⟩
  | .hbm, ⟨49, _⟩ => ⟨S96, .f32⟩
  | .hbm, ⟨50, _⟩ => ⟨S96, .f32⟩
  | .hbm, ⟨51, _⟩ => ⟨S96, .f32⟩
  | .hbm, ⟨52, _⟩ => ⟨S96, .f32⟩
  | .hbm, ⟨53, _⟩ => ⟨S1x96, .f32⟩
  | .hbm, ⟨54, _⟩ => ⟨S1x96, .f32⟩
  | .hbm, ⟨55, _⟩ => ⟨S1x96, .f32⟩
  | .hbm, ⟨56, _⟩ => ⟨S1x96, .f32⟩
  | .hbm, ⟨57, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .bf16⟩
  | .local _ .vmem, ⟨5, _⟩ => ⟨S1x96, .f32⟩
  | .local _ .vmem, ⟨6, _⟩ => ⟨S96x96, .bf16⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S1x96, .f32⟩
  | .local _ .vmem, ⟨13, _⟩ => ⟨S1x96, .f32⟩
  | .local _ .vmem, ⟨14, _⟩ => ⟨S5000x96, .f32⟩
  | .local _ .vmem, ⟨15, _⟩ => ⟨S5000x96, .f32⟩
  | .local _ .vmem, ⟨16, _⟩ => ⟨S1x96, .f32⟩
  | .local _ .vmem, ⟨17, _⟩ => ⟨S1x96, .f32⟩
  | .local _ .vmem, ⟨18, _⟩ => ⟨S1x96, .f32⟩
  | .local _ .vmem, ⟨19, _⟩ => ⟨S1x96, .f32⟩
  | .local _ .vmem, ⟨20, _⟩ => ⟨S5000x96, .f32⟩
  | .local _ .vmem, ⟨21, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x96 : S_.BroadcastsInDim S800000x96 (![] : Fin 0 → Fin S800000x96.rank)
  bcast_S_S50000x96 : S_.BroadcastsInDim S50000x96 (![] : Fin 0 → Fin S50000x96.rank)
  bitsLt_bf16_f32 : FTy.bits .bf16 < FTy.bits .f32
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  reduces_S5000x96_S96 : S5000x96.Reduces [0] S96
  shapeCasts_S1x96_S96 : S1x96.ShapeCasts S96
  bcast_S_S96 : S_.BroadcastsInDim S96 (![] : Fin 0 → Fin S96.rank)
  dot_S800000x32_S32x96_S800000x96_1_0_0_1_n_n_wf : DotDims.WF S800000x32 S32x96 S800000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .bf16 = 32 ∨ (Rect.block (s := S96x96) S96x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .bf16 = 32 ∨ (Rect.block (s := S96x96) S96x96.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)

variable [Facts₀]

def dot_S800000x32_S32x96_S800000x96_1_0_0_1_n_n : DotDims S800000x32 S32x96 S800000x96 where
  lhsContracting := [1]
  rhsContracting := [0]
  lhsNonContracting := [0]
  rhsNonContracting := [1]
  lhsBatch := []
  rhsBatch := []
  wf := dot_S800000x32_S32x96_S800000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_0) S1x96.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25_1) S1x96.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x32 : Shape := ⟨2, ![800000, 32]⟩
abbrev S32x96 : Shape := ⟨2, ![32, 96]⟩
abbrev S96 : Shape := ⟨1, ![96]⟩
abbrev S96x96 : Shape := ⟨2, ![96, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩

abbrev nBuf : Space → Nat
  | .hbm => 81
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x32, .f32⟩
  | .hbm, ⟨3, _⟩ => ⟨S32x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S1x96, .f32⟩
  | .hbm, ⟨27, _⟩ => ⟨S800000x96, .f32⟩
  | .hbm, ⟨28, _⟩ => ⟨S800000x96, .f32⟩
  | .hbm, ⟨29, _⟩ => ⟨S_, .f32⟩
  | .hbm, ⟨30, _⟩ => ⟨S800000x96, .f32⟩
  | .hbm, ⟨31, _⟩ => ⟨S800000x96, .f32⟩
  | .hbm, ⟨32, _⟩ => ⟨S_, .f32⟩
  | .hbm, ⟨33, _⟩ => ⟨S50000x96, .f32⟩
  | .hbm, ⟨34, _⟩ => ⟨S800000x1, .i32⟩
  | .hbm, ⟨35, _⟩ => ⟨S50000x96, .f32⟩
  | .hbm, ⟨36, _⟩ => ⟨S50000x96, .f32⟩
  | .hbm, ⟨37, _⟩ => ⟨S50000x96, .f32⟩
  | .hbm, ⟨38, _⟩ => ⟨S1x96, .f32⟩
  | .hbm, ⟨39, _⟩ => ⟨S50000x96, .f32⟩
  | .hbm, ⟨40, _⟩ => ⟨S50000x96, .f32⟩
  | .hbm, ⟨41, _⟩ => ⟨S_, .f32⟩
  | .hbm, ⟨42, _⟩ => ⟨S50000x96, .f32⟩
  | .hbm, ⟨43, _⟩ => ⟨S50000x96, .f32⟩
  | .hbm, ⟨44, _⟩ => ⟨S50000x96, .f32⟩
  | .hbm, ⟨45, _⟩ => ⟨S1x96, .f32⟩
  | .hbm, ⟨46, _⟩ => ⟨S50000x96, .f32⟩
  | .hbm, ⟨47, _⟩ => ⟨S50000x96, .f32⟩
  | .hbm, ⟨48, _⟩ => ⟨S_, .f32⟩
  | .hbm, ⟨49, _⟩ => ⟨S96, .f32⟩
  | .hbm, ⟨50, _⟩ => ⟨S_, .f32⟩
  | .hbm, ⟨51, _⟩ => ⟨S96, .f32⟩
  | .hbm, ⟨52, _⟩ => ⟨S96, .f32⟩
  | .hbm, ⟨53, _⟩ => ⟨S1x96, .f32⟩
  | .hbm, ⟨54, _⟩ => ⟨S50000x96, .f32⟩
  | .hbm, ⟨55, _⟩ => ⟨S50000x96, .f32⟩
  | .hbm, ⟨56, _⟩ => ⟨S50000x96, .f32⟩
  | .hbm, ⟨57, _⟩ => ⟨S_, .f32⟩
  | .hbm, ⟨58, _⟩ => ⟨S96, .f32⟩
  | .hbm, ⟨59, _⟩ => ⟨S_, .f32⟩
  | .hbm, ⟨60, _⟩ => ⟨S96, .f32⟩
  | .hbm, ⟨61, _⟩ => ⟨S96, .f32⟩
  | .hbm, ⟨62, _⟩ => ⟨S1x96, .f32⟩
  | .hbm, ⟨63, _⟩ => ⟨S50000x96, .f32⟩
  | .hbm, ⟨64, _⟩ => ⟨S50000x96, .f32⟩
  | .hbm, ⟨65, _⟩ => ⟨S_, .f32⟩
  | .hbm, ⟨66, _⟩ => ⟨S96, .f32⟩
  | .hbm, ⟨67, _⟩ => ⟨S96, .f32⟩
  | .hbm, ⟨68, _⟩ => ⟨S96, .f32⟩
  | .hbm, ⟨69, _⟩ => ⟨S1x96, .f32⟩
  | .hbm, ⟨70, _⟩ => ⟨S50000x96, .f32⟩
  | .hbm, ⟨71, _⟩ => ⟨S50000x96, .f32⟩
  | .hbm, ⟨72, _⟩ => ⟨S1x96, .f32⟩
  | .hbm, ⟨73, _⟩ => ⟨S50000x96, .f32⟩
  | .hbm, ⟨74, _⟩ => ⟨S50000x96, .f32⟩
  | .hbm, ⟨75, _⟩ => ⟨S1x96, .f32⟩
  | .hbm, ⟨76, _⟩ => ⟨S50000x96, .f32⟩
  | .hbm, ⟨77, _⟩ => ⟨S50000x96, .f32⟩
  | .hbm, ⟨78, _⟩ => ⟨S_, .f32⟩
  | .hbm, ⟨79, _⟩ => ⟨S50000x96, .f32⟩
  | .hbm, ⟨80, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_cst : Ref sig .tc := ⟨.hbm, 41, rfl⟩
abbrev main_call1_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_cst : Ref sig .tc := ⟨.hbm, 78, rfl⟩
abbrev main_call2_v0 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  gather_S50000x96_S800000x1_S800000x96_1_0_n_n_0_1_196_wf : GatherDims.WF S50000x96 S800000x1 S800000x96 [1] [0] [] [0] [] 1 ![1, 96]
  dot_S800000x32_S32x96_S800000x96_1_0_0_1_n_n_wf : DotDims.WF S800000x32 S32x96 S800000x96 [1] [0] [0] [1] [] []
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x32_S32x96_S800000x96_1_0_0_1_n_n : DotDims S800000x32 S32x96 S800000x96 where
  lhsContracting := [1]
  rhsContracting := [0]
  lhsNonContracting := [0]
  rhsNonContracting := [1]
  lhsBatch := []
  rhsBatch := []
  wf := dot_S800000x32_S32x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.KernelRun.lean ====
/-
  The idealized kernel's run, with every buffer named.

  The program is three kernel regions among stretches of host operations.  Its generated frame follows the
  TensorCore's buffer contents through the program as a fold: the launch memory, then after each host stretch the
  stretch's operations applied, then after each region the region's arrays at what its write-backs leave.  The
  frame keeps of the last valuation only the argument arrays.  Here the same launch is stated with the whole
  valuation kept: every weakly fair execution terminates without fault, and in the final memory EVERY unscoped
  buffer holds what the last valuation of the fold assigns it.  The value of the result array is then a reading of
  that valuation, one region and one host stretch at a time (the other modules).
-/
import proofs.«151547_j68332929679679_2_alg».proof.Proof.Gen.KernelIdeal.Frame

set_option maxRecDepth 16384

noncomputable section

namespace Cert.KernelIdeal.FoldRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element yields the pipelines' staging cells and, per core, nothing more. -/
theorem launch_ghost :
    (ownU (initOf (Pipeline.cells cfgs cellOf_inj) (Pipeline.launchToks cfgs cellOf_inj)) : sProp 𝕄)
      ⊢ |={Set.univ}=> iprop(BI.own (emb₁ (initOf (Pipeline.cells (Pipeline.pin (pcfgs (F := F)) adm) cellOf_inj)
          (Pipeline.launchToks (Pipeline.pin (pcfgs (F := F)) adm) cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the end, a core that holds every unscoped buffer at the fold's last valuation reads them so in the memory. -/
theorem final_read (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W7 m ρ c b⌝ ∗ SI s') := by
  iintro ⟨⟨Hh, -⟩, HSI⟩
  unfold StableHlo.held
  imodintro
  iapply (pointsTo_read_all (Pipeline.ucRefs τ sig) (fun b => (((c : Thread nD τ)).1, b)) (W7 m ρ c) s')
  isplitl [Hh] <;> iassumption

set_option backward.isDefEq.respectTransparency.types false in
/-- THE RUN, every buffer named: from any memory with zero counters every weakly fair execution of the program
    terminates, nothing faulting, and every unscoped buffer of every core ends at the fold's last valuation. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := final_read m ρ)
    (hQ := fun s h => h)

/-- The result array and the eleven argument arrays are unscoped, so the run reads each at the last valuation. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W7 m ρ c (Proc.devRef .tc b)) :=
  (θ_run defs _ _).mono (fun r h c => h c _ (mem_uc b hb)) (run_fold m ρ)

end Cert.KernelIdeal.FoldRun

end
-- ==== Proof.MlpPayload.lean ====
/-
  The two-layer perceptron's block, read at an index.

  At a grid point the first kernel loads a block of 5000 rows of the node features `x` and of the aggregated
  messages `a`, the two weight matrices and the two bias rows, and stores
      relu((x + a) · W₁ + b₁) · W₂ + b₂ .
  Over the extended reals a change of float format is the identity and a matrix product into a zero accumulator
  is the plain sum of products, so the entry at row `r`, column `q` of the stored block is
      (∑ₖ max((∑ₗ (x[r,l] + a[r,l]) · W₁[l,k]) + b₁[k], 0) · W₂[k,q]) + b₂[q] :
  it depends on row `r` of the two row blocks only.
-/
import proofs.«151547_j68332929679679_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Mlp

open Cert.KernelIdeal Cert.KernelIdeal.Gen Idealize.ShloMosaic Idealize.ShloMosaic.ValueIdx

/-- The operand indices of the block product at output index i and shared index q, axis by axis. -/
theorem lhs_axis0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs_axis1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem rhs_axis0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem rhs_axis1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The product of a [5000, 96] block with a [96, 96] matrix, into zeros, at (r, q): the sum over the shared axis. -/
theorem matmul_zero_apply (lhs : FVec Ideal S5000x96 .bf16) (rhs : FVec Ideal S96x96 .bf16) (r : Fin 5000) (q : Fin 96) :
    matmul (F := Ideal) dot_S5000x96_S96x96_S5000x96_1_0_0_1_n_n none lhs rhs (constant (F := Ideal) S5000x96 .f32 0x00000000#32) (ix2 r q)
      = ∑ k : Fin 96, lhs (ix2 r k) * rhs (ix2 k q) := by
  refine (Ideal.matmul_constant_zero_apply dot_S5000x96_S96x96_S5000x96_1_0_0_1_n_n none lhs rhs (ix2 r q)).trans ?_
  rw [← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 r q) ((contrEquiv1 dot_S5000x96_S96x96_S5000x96_1_0_0_1_n_n 96 rfl rfl).symm k) = ix2 r k :=
    funext fun a => Fin.ext (by
      match a with
      | ⟨0, _⟩ => exact lhs_axis0 _ _
      | ⟨1, _⟩ => exact (lhs_axis1 _ _).trans hk)
  have er : dot_S5000x96_S96x96_S5000x96_1_0_0_1_n_n.rhsIdx (ix2 r q) ((contrEquiv1 dot_S5000x96_S96x96_S5000x96_1_0_0_1_n_n 96 rfl rfl).symm k) = ix2 k q :=
    funext fun a => Fin.ext (by
      match a with
      | ⟨0, _⟩ => exact (rhs_axis0 _ _).trans hk
      | ⟨1, _⟩ => exact rhs_axis1 _ _)
  rw [el, er]

/-- A bias row [1, 96] broadcast down the 5000 rows reads, at (r, q), the row's entry q. -/
theorem bias_apply (b : FVec Ideal S1x96 .f32) (r : Fin 5000) (q : Fin 96) :
    broadcastTo S5000x96 b broadcasts_S1x96_S5000x96 (ix2 r q) = b (ix2 (0 : Fin 1) q) :=
  broadcastTo_apply b broadcasts_S1x96_S5000x96 (ix2 r q) (ix2 (0 : Fin 1) q) (fun a => by
    match a with
    | ⟨0, _⟩ => rfl
    | ⟨1, _⟩ => rfl)

/-- The hidden layer's block at (r, k): relu of row r of (x + a) against column k of W₁, plus the bias. -/
def hiddenAt (x a : FVec Ideal S5000x96 .f32) (w1 : FVec Ideal S96x96 .bf16) (b1 : FVec Ideal S1x96 .f32) (r : Fin 5000) (k : Fin 96) : EReal :=
  max ((∑ l : Fin 96, (x (ix2 r l) + a (ix2 r l)) * w1 (ix2 l k)) + b1 (ix2 (0 : Fin 1) k)) (Ideal.ofBits .f32 0x00000000#32)

/-- THE BLOCK AT AN INDEX: what the first kernel stores at row r, column q of its output block. -/
theorem pay_apply (x a : FVec Ideal S5000x96 .f32) (w1 : FVec Ideal S96x96 .bf16) (b1 : FVec Ideal S1x96 .f32)
    (w2 : FVec Ideal S96x96 .bf16) (b2 : FVec Ideal S1x96 .f32) (r : Fin 5000) (q : Fin 96) :
    k0_pay1 (F := Ideal) x a w1 b1 w2 b2 (ix2 r q)
      = (∑ k : Fin 96, hiddenAt x a w1 b1 r k * w2 (ix2 k q)) + b2 (ix2 (0 : Fin 1) q) := by
  unfold k0_pay1
  simp only [shapeCast_self]
  rw [addf_apply, matmul_zero_apply, bias_apply]
  refine congrArg (· + b2 (ix2 (0 : Fin 1) q)) (Finset.sum_congr rfl fun k _ => ?_)
  refine congrArg (· * w2 (ix2 k q)) ?_
  rw [truncf_apply, maximumf_apply, addf_apply, matmul_zero_apply, bias_apply, broadcast_apply]
  unfold hiddenAt
  refine congrArg (fun z => max (z + b1 (ix2 (0 : Fin 1) k)) _) (Finset.sum_congr rfl fun l _ => ?_)
  rw [truncf_apply, addf_apply]

end Cert.KernelIdeal.Mlp

end
-- ==== Proof.MlpRegion.lean ====
/-
  The first region's output array: the perceptron applied to every row.

  The first kernel runs over ten grid points; point `t` reads rows 5000·t … 5000·t + 4999 of the node features
  and of the aggregated messages, the whole weight matrices and bias rows, and writes back the same rows of its
  output.  Since an output entry depends only on its own row of the two row blocks (MlpPayload), what point `t`
  writes back is block `t` of ONE function of the whole arrays, `hidden`; the ten blocks tile the 50000 rows (row
  `n` is in block `n / 5000`), so after the region the output array IS that function of the arrays the region
  found at its entry.
-/
import proofs.«151547_j68332929679679_2_alg».proof.Proof.Gen.KernelIdeal.Frame
import proofs.«151547_j68332929679679_2_alg».proof.Proof.MlpPayload

set_option maxRecDepth 16384

noncomputable section

namespace Cert.KernelIdeal.Mlp

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The perceptron of the whole arrays, index by index: entry (n, q) from row n of `x` and of `a`. -/
def hidden (x a : Vec Ideal S50000x96 .f32) (w1 : Vec Ideal S96x96 .bf16) (b1 : Vec Ideal S1x96 .f32)
    (w2 : Vec Ideal S96x96 .bf16) (b2 : Vec Ideal S1x96 .f32) : Vec Ideal S50000x96 .f32 := fun i =>
  (∑ k : Fin 96, max ((∑ l : Fin 96, (x (ix2 (i 0) l) + a (ix2 (i 0) l)) * w1 (ix2 l k)) + b1 (ix2 (0 : Fin 1) k))
      (Ideal.ofBits .f32 0x00000000#32) * w2 (ix2 k (i 1))) + b2 (ix2 (0 : Fin 1) (i 1))

/-- The printed index maps over the grid: the two row windows and the output move together, one block of rows per
    point; the weights and biases stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of point t's block is row 5000·t + r of the array. -/
def rowOf (t : Fin cfg0.N) (r : Fin 5000) : Fin 50000 :=
  ⟨5000 * t.val + r.val, by have := t.isLt; have hN : cfg0.N = 10 := N_0; have := r.isLt; omega⟩

theorem x_blk (c : Dev nD) (t : Fin cfg0.N) (r : Fin 5000) (l : Fin 96) :
    iblk0 V c 0 t (ix2 r l) = V c main_arg0 (ix2 (rowOf t r) l) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * r.val = 5000 * t.val + r.val; omega
  | ⟨1, _⟩ => show win0_0.index t (1 : Fin 2) * 96 + 1 * l.val = l.val; omega

theorem a_blk (c : Dev nD) (t : Fin cfg0.N) (r : Fin 5000) (l : Fin 96) :
    iblk0 V c 1 t (ix2 r l) = V c main_v19 (ix2 (rowOf t r) l) := by
  obtain ⟨-, -, e0, e1, -⟩ := idx_facts t
  unfold iblk0
  rw [View.read_apply]
  show V c main_v19 _ = V c main_v19 _
  refine congrArg (V c main_v19) (funext fun a => Fin.ext ?_)
  match a with
  | ⟨0, _⟩ => show win0_1.index t (0 : Fin 2) * 5000 + 1 * r.val = 5000 * t.val + r.val; omega
  | ⟨1, _⟩ => show win0_1.index t (1 : Fin 2) * 96 + 1 * l.val = l.val; omega

theorem w1_blk (c : Dev nD) (t : Fin cfg0.N) (l k : Fin 96) :
    iblk0 V c 2 t (ix2 l k) = V c main_v20 (ix2 l k) := by
  obtain ⟨-, -, -, -, e0, e1, -⟩ := idx_facts t
  unfold iblk0
  rw [View.read_apply]
  show V c main_v20 _ = V c main_v20 _
  refine congrArg (V c main_v20) (funext fun a => Fin.ext ?_)
  match a with
  | ⟨0, _⟩ => show win0_2.index t (0 : Fin 2) * 96 + 1 * l.val = l.val; omega
  | ⟨1, _⟩ => show win0_2.index t (1 : Fin 2) * 96 + 1 * k.val = k.val; omega

theorem b1_blk (c : Dev nD) (t : Fin cfg0.N) (k : Fin 96) :
    iblk0 V c 3 t (ix2 (0 : Fin 1) k) = V c main_v22 (ix2 (0 : Fin 1) k) := by
  obtain ⟨-, -, -, -, -, -, e0, e1, -⟩ := idx_facts t
  unfold iblk0
  rw [View.read_apply]
  show V c main_v22 _ = V c main_v22 _
  refine congrArg (V c main_v22) (funext fun a => Fin.ext ?_)
  match a with
  | ⟨0, _⟩ => show win0_3.index t (0 : Fin 2) * 1 + 1 * 0 = 0; omega
  | ⟨1, _⟩ => show win0_3.index t (1 : Fin 2) * 96 + 1 * k.val = k.val; omega

theorem w2_blk (c : Dev nD) (t : Fin cfg0.N) (l k : Fin 96) :
    iblk0 V c 4 t (ix2 l k) = V c main_v21 (ix2 l k) := by
  obtain ⟨-, -, -, -, -, -, -, -, e0, e1, -⟩ := idx_facts t
  unfold iblk0
  rw [View.read_apply]
  show V c main_v21 _ = V c main_v21 _
  refine congrArg (V c main_v21) (funext fun a => Fin.ext ?_)
  match a with
  | ⟨0, _⟩ => show win0_4.index t (0 : Fin 2) * 96 + 1 * l.val = l.val; omega
  | ⟨1, _⟩ => show win0_4.index t (1 : Fin 2) * 96 + 1 * k.val = k.val; omega

theorem b2_blk (c : Dev nD) (t : Fin cfg0.N) (k : Fin 96) :
    iblk0 V c 5 t (ix2 (0 : Fin 1) k) = V c main_v23 (ix2 (0 : Fin 1) k) := by
  obtain ⟨-, -, -, -, -, -, -, -, -, -, e0, e1, -⟩ := idx_facts t
  unfold iblk0
  rw [View.read_apply]
  show V c main_v23 _ = V c main_v23 _
  refine congrArg (V c main_v23) (funext fun a => Fin.ext ?_)
  match a with
  | ⟨0, _⟩ => show win0_5.index t (0 : Fin 2) * 1 + 1 * 0 = 0; omega
  | ⟨1, _⟩ => show win0_5.index t (1 : Fin 2) * 96 + 1 * k.val = k.val; omega

/-- Where entry (r, q) of point t's output block sits in the array. -/
theorem out_emb (t : Fin cfg0.N) (r : Fin 5000) (q : Fin 96) :
    ((cfg0.win 6).blk t).view.emb (ix2 r q) = ix2 (rowOf t r) q := by
  obtain ⟨-, -, -, -, -, -, -, -, -, -, -, -, e0, e1⟩ := idx_facts t
  refine funext fun a => Fin.ext ?_
  match a with
  | ⟨0, _⟩ => show win0_6.index t (0 : Fin 2) * 5000 + 1 * r.val = 5000 * t.val + r.val; omega
  | ⟨1, _⟩ => show win0_6.index t (1 : Fin 2) * 96 + 1 * q.val = q.val; omega

/-- WHAT POINT t WRITES BACK is block t of `hidden` of the arrays as the region finds them. -/
theorem flushed_eq (c : Dev nD) (t : Fin cfg0.N) :
    (dat0 V c).flushed 6 t = ((cfg0.win 6).blk t).view.read (Elt Ideal)
      (hidden (V c main_arg0) (V c main_v19) (V c main_v20) (V c main_v22) (V c main_v21) (V c main_v23)) := by
  show (cfg0.win 6).cut (grid0.coords t) ((dat0 V c).after 6 t) = _
  rw [after0_6]
  unfold out0_6
  rw [View.canon_unit_zero hz]
  simp only [View.ld_unit_zero (S := S5000x96) hz, View.ld_unit_zero (S := S96x96) hz, View.ld_unit_zero (S := S1x96) hz]
  funext j
  obtain ⟨r, q, rfl⟩ : ∃ (r : Fin 5000) (q : Fin 96), j = ix2 r q := ⟨j 0, j 1, eq_ix2 j⟩
  rw [View.read_apply, out_emb]
  show k0_pay1 (F := Ideal) (iblk0 V c 0 t) (iblk0 V c 1 t) (iblk0 V c 2 t) (iblk0 V c 3 t) (iblk0 V c 4 t) (iblk0 V c 5 t) (ix2 r q) = _
  refine (pay_apply (iblk0 V c 0 t) (iblk0 V c 1 t) (iblk0 V c 2 t) (iblk0 V c 3 t) (iblk0 V c 4 t) (iblk0 V c 5 t) r q).trans ?_
  unfold hidden hiddenAt
  rw [b2_blk]
  refine congrArg (· + V c main_v23 (ix2 (0 : Fin 1) q)) (Finset.sum_congr rfl fun k _ => ?_)
  rw [w2_blk, b1_blk]
  refine congrArg (fun z => max (z + V c main_v22 (ix2 (0 : Fin 1) k)) (Ideal.ofBits .f32 0x00000000#32) * V c main_v21 (ix2 k q)) (Finset.sum_congr rfl fun l _ => ?_)
  rw [x_blk, a_blk, w1_blk]

/-- An index of the array is in point t's block iff each coordinate is in the block's range on its axis. -/
theorem mem_blk (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v24).slice (win0_6.rect t)).set ↔ _
  rw [View.set_slice_whole, Rect.mem_set_unit]
  exact Iff.rfl

/-- THE ARRAY after the region: `hidden` of the arrays the region found. -/
theorem final (c : Dev nD) :
    (dat0 V c).arrAt 6 cfg0.N = hidden (V c main_arg0) (V c main_v19) (V c main_v20) (V c main_v22) (V c main_v21) (V c main_v23) :=
  (dat0 V c).arrAt_eq_of_cover 6 _ (fun t _ => flushed_eq V c t) fun i => by
    have hi0 : (i 0).val < 50000 := (i 0).isLt
    have hi1 : (i 1).val < 96 := (i 1).isLt
    have hN : cfg0.N = 10 := N_0
    refine ⟨⟨(i 0).val / 5000, by omega⟩, flush0_6 _, ?_⟩
    rw [mem_blk]
    obtain ⟨-, -, -, -, -, -, -, -, -, -, -, -, e0, e1⟩ := idx_facts ⟨(i 0).val / 5000, by omega⟩
    intro a
    match a with
    | ⟨0, _⟩ => show win0_6.index _ (0 : Fin 2) * 5000 ≤ (i 0).val ∧ (i 0).val < win0_6.index _ (0 : Fin 2) * 5000 + 5000; rw [e0]; dsimp only; omega
    | ⟨1, _⟩ => show win0_6.index _ (1 : Fin 2) * 96 ≤ (i 1).val ∧ (i 1).val < win0_6.index _ (1 : Fin 2) * 96 + 96; rw [e1]; omega

end Cert.KernelIdeal.Mlp

end
-- ==== Proof.HostStretches.lean ====
/-
  The host operations around the three regions, read.

  Before the first region the host computes the aggregated messages (a gather of node rows by source index, the
  edge projection, a rectifier, a scatter-add by destination index), converts the two weight matrices to the
  kernel's format (the identity over the extended reals) and views the two bias vectors as rows.  Between the
  second and the third region it turns the two accumulated rows into the column means  s / 50000  and the column
  variances  q / 50000 − mean², and views them and the scale and shift vectors as rows.  Each lemma here says
  what one buffer holds at a region's entry, as a term of what the earlier stage left.

  The aggregated messages are the reference's own term up to the grouping of one sum: the kernel adds the gathered
  row to (projection + bias), the reference adds (gathered row + projection) to the bias; addition of extended
  reals is associative, infinities included, so the two agree entry by entry.
-/
import proofs.«151547_j68332929679679_2_alg».proof.Proof.Gen.KernelIdeal.Frame
import proofs.«151547_j68332929679679_2_alg».proof.Proof.Gen.ReferenceIdeal.Read
import proofs.«151547_j68332929679679_2_alg».proof.Proof.MlpRegion
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## At the first region's entry -/

theorem entry0_x (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl

theorem entry0_w1 (c : Dev nD) : V3 m ρ c main_v20 = (truncf .bf16 (show FVec Ideal S96x96 .f32 from m ((c : Thread nD τ).loc main_arg5)) bitsLt_bf16_f32 : FVec Ideal S96x96 .bf16) := by
  show StableHlo.after hostOps0_2 (StableHlo.after hostOps0_1 (StableHlo.after hostOps0 (W0 m ρ c))) (Proc.devRef .tc main_v20) = _
  after_results_simp <;> rfl

theorem entry0_w2 (c : Dev nD) : V3 m ρ c main_v21 = (truncf .bf16 (show FVec Ideal S96x96 .f32 from m ((c : Thread nD τ).loc main_arg7)) bitsLt_bf16_f32 : FVec Ideal S96x96 .bf16) := by
  show StableHlo.after hostOps0_2 (StableHlo.after hostOps0_1 (StableHlo.after hostOps0 (W0 m ρ c))) (Proc.devRef .tc main_v21) = _
  after_results_simp <;> rfl

theorem entry0_b1 (c : Dev nD) : V3 m ρ c main_v22 = shapeCast S1x96 (m ((c : Thread nD τ).loc main_arg6)) shapeCasts_S96_S1x96 := by
  show StableHlo.after hostOps0_2 (StableHlo.after hostOps0_1 (StableHlo.after hostOps0 (W0 m ρ c))) (Proc.devRef .tc main_v22) = _
  after_results_simp <;> rfl

theorem entry0_b2 (c : Dev nD) : V3 m ρ c main_v23 = shapeCast S1x96 (m ((c : Thread nD τ).loc main_arg8)) shapeCasts_S96_S1x96 := by
  show StableHlo.after hostOps0_2 (StableHlo.after hostOps0_1 (StableHlo.after hostOps0 (W0 m ρ c))) (Proc.devRef .tc main_v23) = _
  after_results_simp <;> rfl

/-- A rectified sum of three arrays does not depend on how the sum is grouped: addition of extended reals is
    associative at every value. -/
theorem relu_regroup {s : Shape} (g d b z : FVec Ideal s .f32) :
    maximumf (addf g (addf d b)) z = maximumf (addf (addf g d) b) z := by
  funext i
  show max (g i + (d i + b i)) (z i) = max ((g i + d i) + b i) (z i)
  rw [add_assoc]

/-- The aggregated messages are the reference's, of the same arguments: one sum regrouped. -/
theorem entry0_aggr (c : Dev nD) :
    V3 m ρ c main_v19 = Cert.ReferenceIdeal.Read.val_main_v19 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  show StableHlo.after hostOps0_2 (StableHlo.after hostOps0_1 (StableHlo.after hostOps0 (W0 m ρ c))) (Proc.devRef .tc main_v19) = _
  after_results_simp
  unfold Cert.ReferenceIdeal.Read.val_main_v19 Cert.ReferenceIdeal.Read.val_main_v18 Cert.ReferenceIdeal.Read.val_main_v17
    Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst Cert.ReferenceIdeal.Read.val_main_call0_v0
    Cert.ReferenceIdeal.Read.val_main_call0_cst
  refine congrArg (Host.scatterAdd (F := Ideal) _ _ _) ?_
  exact relu_regroup (s := S800000x96) _ _ _ _

/-! ## The first region's output, and what the second leaves -/

/-- The second region finds, in the first one's output array, the perceptron of the first region's entry arrays. -/
theorem entry1_h (c : Dev nD) :
    V4 m ρ c main_v24 = Mlp.hidden (V3 m ρ c main_arg0) (V3 m ρ c main_v19) (V3 m ρ c main_v20) (V3 m ρ c main_v22)
      (V3 m ρ c main_v21) (V3 m ρ c main_v23) :=
  (W4_arr m ρ c 6).trans (Mlp.final (V3 m ρ) c)

/-- The second region only reads that array: it leaves it as found. -/
theorem exit1_h (c : Dev nD) : W5 m ρ c (Proc.devRef .tc main_v24) = V4 m ρ c main_v24 :=
  (W5_arr m ρ c 0).trans (((dat1 (V4 m ρ) c).arrAt_in 0 rfl _).trans (A_eq1 (V4 m ρ) c 0))

theorem exit1_sum (c : Dev nD) : W5 m ρ c (Proc.devRef .tc main_v25_0) = (dat1 (V4 m ρ) c).arrAt 1 cfg1.N := W5_arr m ρ c 1
theorem exit1_sq (c : Dev nD) : W5 m ρ c (Proc.devRef .tc main_v25_1) = (dat1 (V4 m ρ) c).arrAt 2 cfg1.N := W5_arr m ρ c 2

/-- The scale and shift vectors reach the third region's entry as launched: nothing before writes them. -/
theorem W5_arg9 (c : Dev nD) : W5 m ρ c (Proc.devRef .tc main_arg9) = m ((c : Thread nD τ).loc main_arg9) := by
  refine (W5_of_ne m ρ c main_arg9 (by decide)).trans ((W4_of_ne m ρ c main_arg9 (by decide)).trans ?_)
  show StableHlo.after hostOps0_2 (StableHlo.after hostOps0_1 (StableHlo.after hostOps0 (W0 m ρ c))) (Proc.devRef .tc main_arg9) = _
  after_results_simp <;> rfl
theorem W5_arg10 (c : Dev nD) : W5 m ρ c (Proc.devRef .tc main_arg10) = m ((c : Thread nD τ).loc main_arg10) := by
  refine (W5_of_ne m ρ c main_arg10 (by decide)).trans ((W4_of_ne m ρ c main_arg10 (by decide)).trans ?_)
  show StableHlo.after hostOps0_2 (StableHlo.after hostOps0_1 (StableHlo.after hostOps0 (W0 m ρ c))) (Proc.devRef .tc main_arg10) = _
  after_results_simp <;> rfl

/-! ## At the third region's entry -/

theorem entry2_h (c : Dev nD) : V6 m ρ c main_v24 = V4 m ρ c main_v24 := by
  show StableHlo.after hostOps2 (W5 m ρ c) (Proc.devRef .tc main_v24) = _
  after_results_simp
  exact exit1_h m ρ c

/-- A row [1, 96] viewed as a vector [96] reads, at j, the row's entry (0, j); and back. -/
theorem unrow_apply (v : FVec Ideal S1x96 .f32) (j : Fin 96) :
    shapeCast S96 v shapeCasts_S1x96_S96 (ix1 j) = v (ix2 (0 : Fin 1) j) :=
  shapeCast_apply v shapeCasts_S1x96_S96 (ix1 j) (ix2 (0 : Fin 1) j) (by
    rw [Shape.rowMajor_val_one, Shape.rowMajor_val_two]; show (0 : Fin 1).val * 96 + j.val = j.val; simp)
theorem row_apply (v : FVec Ideal S96 .f32) (j : Fin 96) :
    shapeCast S1x96 v shapeCasts_S96_S1x96 (ix2 (0 : Fin 1) j) = v (ix1 j) :=
  shapeCast_apply v shapeCasts_S96_S1x96 (ix2 (0 : Fin 1) j) (ix1 j) (by
    rw [Shape.rowMajor_val_one, Shape.rowMajor_val_two]; show j.val = (0 : Fin 1).val * 96 + j.val; simp)

/-- The column mean the third region finds: the accumulated sum over the row count. -/
theorem entry2_mu (c : Dev nD) (q : Fin 96) :
    V6 m ρ c main_v34 (ix2 (0 : Fin 1) q)
      = Ideal.div ((dat1 (V4 m ρ) c).arrAt 1 cfg1.N (ix2 (0 : Fin 1) q)) (Ideal.ofBits .f32 0x47435000#32) := by
  have e : V6 m ρ c main_v34 = shapeCast S1x96 (Host.divf (F := Ideal) (shapeCast S96 (W5 m ρ c (Proc.devRef .tc main_v25_0)) shapeCasts_S1x96_S96)
      (broadcastInDim S96 ![] bcast_S_S96 (constant (F := Ideal) S_ .f32 0x47435000#32))) shapeCasts_S96_S1x96 := by
    show StableHlo.after hostOps2 (W5 m ρ c) (Proc.devRef .tc main_v34) = _
    after_results_simp <;> rfl
  rw [e, row_apply, exit1_sum]
  show Ideal.div (shapeCast S96 _ shapeCasts_S1x96_S96 (ix1 q)) _ = _
  rw [unrow_apply]
  rfl

/-- The column variance the third region finds: the accumulated sum of squares over the row count, minus the
    square of the mean. -/
theorem entry2_var (c : Dev nD) (q : Fin 96) :
    V6 m ρ c main_v35 (ix2 (0 : Fin 1) q)
      = Ideal.div ((dat1 (V4 m ρ) c).arrAt 2 cfg1.N (ix2 (0 : Fin 1) q)) (Ideal.ofBits .f32 0x47435000#32)
        - Ideal.div ((dat1 (V4 m ρ) c).arrAt 1 cfg1.N (ix2 (0 : Fin 1) q)) (Ideal.ofBits .f32 0x47435000#32)
          * Ideal.div ((dat1 (V4 m ρ) c).arrAt 1 cfg1.N (ix2 (0 : Fin 1) q)) (Ideal.ofBits .f32 0x47435000#32) := by
  have e : V6 m ρ c main_v35 = shapeCast S1x96 (subf
      (Host.divf (F := Ideal) (shapeCast S96 (W5 m ρ c (Proc.devRef .tc main_v25_1)) shapeCasts_S1x96_S96)
        (broadcastInDim S96 ![] bcast_S_S96 (constant (F := Ideal) S_ .f32 0x47435000#32)))
      (mulf
        (Host.divf (F := Ideal) (shapeCast S96 (W5 m ρ c (Proc.devRef .tc main_v25_0)) shapeCasts_S1x96_S96)
          (broadcastInDim S96 ![] bcast_S_S96 (constant (F := Ideal) S_ .f32 0x47435000#32)))
        (Host.divf (F := Ideal) (shapeCast S96 (W5 m ρ c (Proc.devRef .tc main_v25_0)) shapeCasts_S1x96_S96)
          (broadcastInDim S96 ![] bcast_S_S96 (constant (F := Ideal) S_ .f32 0x47435000#32))))) shapeCasts_S96_S1x96 := by
    show StableHlo.after hostOps2 (W5 m ρ c) (Proc.devRef .tc main_v35) = _
    after_results_simp <;> rfl
  rw [e, row_apply, exit1_sum, exit1_sq]
  show Ideal.div (shapeCast S96 _ shapeCasts_S1x96_S96 (ix1 q)) _
      - Ideal.div (shapeCast S96 _ shapeCasts_S1x96_S96 (ix1 q)) _ * Ideal.div (shapeCast S96 _ shapeCasts_S1x96_S96 (ix1 q)) _ = _
  rw [unrow_apply, unrow_apply]
  rfl

theorem entry2_ga (c : Dev nD) (q : Fin 96) :
    V6 m ρ c main_v36 (ix2 (0 : Fin 1) q) = m ((c : Thread nD τ).loc main_arg9) (ix1 q) := by
  have e : V6 m ρ c main_v36 = shapeCast S1x96 (W5 m ρ c (Proc.devRef .tc main_arg9)) shapeCasts_S96_S1x96 := by
    show StableHlo.after hostOps2 (W5 m ρ c) (Proc.devRef .tc main_v36) = _
    after_results_simp <;> rfl
  rw [e, row_apply, W5_arg9]

theorem entry2_be (c : Dev nD) (q : Fin 96) :
    V6 m ρ c main_v37 (ix2 (0 : Fin 1) q) = m ((c : Thread nD τ).loc main_arg10) (ix1 q) := by
  have e : V6 m ρ c main_v37 = shapeCast S1x96 (W5 m ρ c (Proc.devRef .tc main_arg10)) shapeCasts_S96_S1x96 := by
    show StableHlo.after hostOps2 (W5 m ρ c) (Proc.devRef .tc main_v37) = _
    after_results_simp <;> rfl
  rw [e, row_apply, W5_arg10]

end Cert.KernelIdeal.Fold

end
-- ==== Proof.NormPayload.lean ====
/-
  The normalisation kernel's block, read at an index.

  At a grid point the third kernel loads a block `h` of 5000 rows and four rows [1, 96] — the column means `μ`,
  the column variances `v`, the scale `γ` and the shift `β` — and stores
      max((h − μ) · (v + ε)^(−1/2) · γ + β, 0)
  where ε is the single-precision word nearest 10⁻⁵.  At row r, column q this is
      max((h[r,q] − μ[q]) · rsqrt(v[q] + ε) · γ[q] + β[q], 0) :
  pointwise in the block, with the four rows read at column q.
-/
import proofs.«151547_j68332929679679_2_alg».proof.Proof.MlpPayload

noncomputable section

namespace Cert.KernelIdeal.Norm

open Cert.KernelIdeal Cert.KernelIdeal.Gen Idealize.ShloMosaic Idealize.ShloMosaic.ValueIdx
open Cert.KernelIdeal.Mlp (bias_apply)

/-- THE BLOCK AT AN INDEX. -/
theorem pay_apply (v : FVec Ideal S1x96 .f32) (h : FVec Ideal S5000x96 .f32) (mu ga be : FVec Ideal S1x96 .f32)
    (r : Fin 5000) (q : Fin 96) :
    k2_pay1 (F := Ideal) v h mu ga be (ix2 r q)
      = max ((h (ix2 r q) - mu (ix2 (0 : Fin 1) q)) * Ideal.rsqrt (v (ix2 (0 : Fin 1) q) + Ideal.ofBits .f32 0x3727C5AC#32)
          * ga (ix2 (0 : Fin 1) q) + be (ix2 (0 : Fin 1) q)) (Ideal.ofBits .f32 0x00000000#32) := by
  unfold k2_pay1
  simp only [shapeCast_self]
  rw [maximumf_apply, addf_apply, mulf_apply, mulf_apply, subf_apply, bias_apply, bias_apply, bias_apply, bias_apply,
    broadcast_apply]
  rfl

end Cert.KernelIdeal.Norm

end
-- ==== Proof.NormRegion.lean ====
/-
  The third region's output array: the normalisation applied to every row.

  The third kernel runs over ten grid points; point `t` reads rows 5000·t … 5000·t + 4999 of the array `h` the
  first region wrote, the four rows (means, variances, scale, shift) whole, and writes back the same rows of the
  result.  An output entry depends only on the same entry of `h` and on column q of the four rows (NormPayload),
  so what point `t` writes back is block `t` of ONE function of the whole arrays, `normed`; the ten blocks tile the
  50000 rows, so after the region the result array IS that function of the arrays the region found at its entry.
-/
import proofs.«151547_j68332929679679_2_alg».proof.Proof.Gen.KernelIdeal.Frame
import proofs.«151547_j68332929679679_2_alg».proof.Proof.NormPayload

set_option maxRecDepth 16384

noncomputable section

namespace Cert.KernelIdeal.Norm

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The normalisation of the whole arrays, index by index. -/
def normed (h : Vec Ideal S50000x96 .f32) (mu va ga be : Vec Ideal S1x96 .f32) : Vec Ideal S50000x96 .f32 := fun i =>
  max ((h i - mu (ix2 (0 : Fin 1) (i 1))) * Ideal.rsqrt (va (ix2 (0 : Fin 1) (i 1)) + Ideal.ofBits .f32 0x3727C5AC#32)
      * ga (ix2 (0 : Fin 1) (i 1)) + be (ix2 (0 : Fin 1) (i 1))) (Ideal.ofBits .f32 0x00000000#32)

/-- The printed index maps over the grid: the row window and the output move together, one block of rows per
    point; the four rows stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of point t's block is row 5000·t + r of the array. -/
def rowOf (t : Fin cfg2.N) (r : Fin 5000) : Fin 50000 :=
  ⟨5000 * t.val + r.val, by have := t.isLt; have hN : cfg2.N = 10 := N_2; have := r.isLt; omega⟩

theorem h_blk (c : Dev nD) (t : Fin cfg2.N) (r : Fin 5000) (l : Fin 96) :
    iblk2 V c 0 t (ix2 r l) = V c main_v24 (ix2 (rowOf t r) l) := by
  obtain ⟨e0, e1, -⟩ := idx_facts t
  unfold iblk2
  rw [View.read_apply]
  show V c main_v24 _ = V c main_v24 _
  refine congrArg (V c main_v24) (funext fun a => Fin.ext ?_)
  match a with
  | ⟨0, _⟩ => show win2_0.index t (0 : Fin 2) * 5000 + 1 * r.val = 5000 * t.val + r.val; omega
  | ⟨1, _⟩ => show win2_0.index t (1 : Fin 2) * 96 + 1 * l.val = l.val; omega

theorem mu_blk (c : Dev nD) (t : Fin cfg2.N) (k : Fin 96) :
    iblk2 V c 1 t (ix2 (0 : Fin 1) k) = V c main_v34 (ix2 (0 : Fin 1) k) := by
  obtain ⟨-, -, e0, e1, -⟩ := idx_facts t
  unfold iblk2
  rw [View.read_apply]
  show V c main_v34 _ = V c main_v34 _
  refine congrArg (V c main_v34) (funext fun a => Fin.ext ?_)
  match a with
  | ⟨0, _⟩ => show win2_1.index t (0 : Fin 2) * 1 + 1 * 0 = 0; omega
  | ⟨1, _⟩ => show win2_1.index t (1 : Fin 2) * 96 + 1 * k.val = k.val; omega

theorem va_blk (c : Dev nD) (t : Fin cfg2.N) (k : Fin 96) :
    iblk2 V c 2 t (ix2 (0 : Fin 1) k) = V c main_v35 (ix2 (0 : Fin 1) k) := by
  obtain ⟨-, -, -, -, e0, e1, -⟩ := idx_facts t
  unfold iblk2
  rw [View.read_apply]
  show V c main_v35 _ = V c main_v35 _
  refine congrArg (V c main_v35) (funext fun a => Fin.ext ?_)
  match a with
  | ⟨0, _⟩ => show win2_2.index t (0 : Fin 2) * 1 + 1 * 0 = 0; omega
  | ⟨1, _⟩ => show win2_2.index t (1 : Fin 2) * 96 + 1 * k.val = k.val; omega

theorem ga_blk (c : Dev nD) (t : Fin cfg2.N) (k : Fin 96) :
    iblk2 V c 3 t (ix2 (0 : Fin 1) k) = V c main_v36 (ix2 (0 : Fin 1) k) := by
  obtain ⟨-, -, -, -, -, -, e0, e1, -⟩ := idx_facts t
  unfold iblk2
  rw [View.read_apply]
  show V c main_v36 _ = V c main_v36 _
  refine congrArg (V c main_v36) (funext fun a => Fin.ext ?_)
  match a with
  | ⟨0, _⟩ => show win2_3.index t (0 : Fin 2) * 1 + 1 * 0 = 0; omega
  | ⟨1, _⟩ => show win2_3.index t (1 : Fin 2) * 96 + 1 * k.val = k.val; omega

theorem be_blk (c : Dev nD) (t : Fin cfg2.N) (k : Fin 96) :
    iblk2 V c 4 t (ix2 (0 : Fin 1) k) = V c main_v37 (ix2 (0 : Fin 1) k) := by
  obtain ⟨-, -, -, -, -, -, -, -, e0, e1, -⟩ := idx_facts t
  unfold iblk2
  rw [View.read_apply]
  show V c main_v37 _ = V c main_v37 _
  refine congrArg (V c main_v37) (funext fun a => Fin.ext ?_)
  match a with
  | ⟨0, _⟩ => show win2_4.index t (0 : Fin 2) * 1 + 1 * 0 = 0; omega
  | ⟨1, _⟩ => show win2_4.index t (1 : Fin 2) * 96 + 1 * k.val = k.val; omega

/-- Where entry (r, q) of point t's output block sits in the array. -/
theorem out_emb (t : Fin cfg2.N) (r : Fin 5000) (q : Fin 96) :
    ((cfg2.win 5).blk t).view.emb (ix2 r q) = ix2 (rowOf t r) q := by
  obtain ⟨-, -, -, -, -, -, -, -, -, -, e0, e1⟩ := idx_facts t
  refine funext fun a => Fin.ext ?_
  match a with
  | ⟨0, _⟩ => show win2_5.index t (0 : Fin 2) * 5000 + 1 * r.val = 5000 * t.val + r.val; omega
  | ⟨1, _⟩ => show win2_5.index t (1 : Fin 2) * 96 + 1 * q.val = q.val; omega

/-- WHAT POINT t WRITES BACK is block t of `normed` of the arrays as the region finds them. -/
theorem flushed_eq (c : Dev nD) (t : Fin cfg2.N) :
    (dat2 V c).flushed 5 t = ((cfg2.win 5).blk t).view.read (Elt Ideal)
      (normed (V c main_v24) (V c main_v34) (V c main_v35) (V c main_v36) (V c main_v37)) := by
  show (cfg2.win 5).cut (grid2.coords t) ((dat2 V c).after 5 t) = _
  rw [after2_5]
  unfold out2_5
  rw [View.canon_unit_zero hz]
  simp only [View.ld_unit_zero (S := S5000x96) hz, View.ld_unit_zero (S := S1x96) hz]
  funext j
  obtain ⟨r, q, rfl⟩ : ∃ (r : Fin 5000) (q : Fin 96), j = ix2 r q := ⟨j 0, j 1, eq_ix2 j⟩
  rw [View.read_apply, out_emb]
  show k2_pay1 (F := Ideal) (iblk2 V c 2 t) (iblk2 V c 0 t) (iblk2 V c 1 t) (iblk2 V c 3 t) (iblk2 V c 4 t) (ix2 r q) = _
  refine (pay_apply (iblk2 V c 2 t) (iblk2 V c 0 t) (iblk2 V c 1 t) (iblk2 V c 3 t) (iblk2 V c 4 t) r q).trans ?_
  unfold normed
  rw [h_blk, mu_blk, va_blk, ga_blk, be_blk]
  rfl

/-- An index of the array is in point t's block iff each coordinate is in the block's range on its axis. -/
theorem mem_blk (t : Fin cfg2.N) (i : S50000x96.Idx) :
    i ∈ ((cfg2.win 5).blk t).view.set ↔ ∀ a : Fin 2, win2_5.index t a * S5000x96.size a ≤ (i a).val ∧ (i a).val < win2_5.index t a * S5000x96.size a + S5000x96.size a := by
  show i ∈ ((View.whole main_v38).slice (win2_5.rect t)).set ↔ _
  rw [View.set_slice_whole, Rect.mem_set_unit]
  exact Iff.rfl

/-- THE ARRAY after the region: `normed` of the arrays the region found. -/
theorem final (c : Dev nD) :
    (dat2 V c).arrAt 5 cfg2.N = normed (V c main_v24) (V c main_v34) (V c main_v35) (V c main_v36) (V c main_v37) :=
  (dat2 V c).arrAt_eq_of_cover 5 _ (fun t _ => flushed_eq V c t) fun i => by
    have hi0 : (i 0).val < 50000 := (i 0).isLt
    have hi1 : (i 1).val < 96 := (i 1).isLt
    have hN : cfg2.N = 10 := N_2
    refine ⟨⟨(i 0).val / 5000, by omega⟩, flush2_5 _, ?_⟩
    rw [mem_blk]
    obtain ⟨-, -, -, -, -, -, -, -, -, -, e0, e1⟩ := idx_facts ⟨(i 0).val / 5000, by omega⟩
    intro a
    match a with
    | ⟨0, _⟩ => show win2_5.index _ (0 : Fin 2) * 5000 ≤ (i 0).val ∧ (i 0).val < win2_5.index _ (0 : Fin 2) * 5000 + 5000; rw [e0]; dsimp only; omega
    | ⟨1, _⟩ => show win2_5.index _ (1 : Fin 2) * 96 ≤ (i 1).val ∧ (i 1).val < win2_5.index _ (1 : Fin 2) * 96 + 96; rw [e1]; omega

end Cert.KernelIdeal.Norm

end
-- ==== Proof.StatsPayload.lean ====
/-
  The statistics kernel's two accumulations, read at an index.

  At a grid point the second kernel loads a block `x` of 5000 rows and the two running rows `s` (sums) and `q`
  (sums of squares), each [1, 96], and stores
      s + (sum of x down its rows)        and        q + (sum of x·x down its rows) ;
  at the first point the running rows are first set to zero.  Over the extended reals a sum down the rows of a
  block is the plain finite sum, so at column j the stored values are  s[j] + ∑ᵣ x[r, j]  and  q[j] + ∑ᵣ x[r, j]².
-/
import proofs.«151547_j68332929679679_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Stats

open Cert.KernelIdeal Cert.KernelIdeal.Gen Idealize.ShloMosaic Idealize.ShloMosaic.ValueIdx

/-- A sum down the 5000 rows of a block, at column j. -/
theorem colsum_apply (v : FVec Ideal S5000x96 .f32) (hφ : FKind.Formats .f32) (hacc : (0x00000000#32 : BitVec 32) = 0x00000000#32)
    (j : Fin 96) :
    multiReduction (F := Ideal) .add [0] S96 v 0x00000000#32 reduces_S5000x96_S96 hφ hacc (ix1 j) = ∑ r : Fin 5000, v (ix2 r j) := by
  refine (Ideal.multiReduction_add_single v 0x00000000#32 reduces_S5000x96_S96 hφ hacc (ix1 j)).trans ?_
  refine Finset.sum_congr rfl fun r _ => congrArg v (funext fun a => Fin.ext ?_)
  match a with
  | ⟨0, _⟩ => rfl
  | ⟨1, _⟩ => rfl

/-- A row [96] viewed as [1, 96] reads, at (0, j), the row's entry j. -/
theorem row_apply (v : FVec Ideal S96 .f32) (j : Fin 96) :
    shapeCast S1x96 v shapeCasts_S96_S1x96 (ix2 (0 : Fin 1) j) = v (ix1 j) :=
  shapeCast_apply v shapeCasts_S96_S1x96 (ix2 (0 : Fin 1) j) (ix1 j) (by
    rw [Shape.rowMajor_val_one, Shape.rowMajor_val_two]
    show j.val = (0 : Fin 1).val * 96 + j.val
    simp)

/-- The running sum after a point: the running row plus the block's column sums. -/
theorem sum_apply (x : FVec Ideal S5000x96 .f32) (s : FVec Ideal S1x96 .f32) (j : Fin 96) :
    k1_pay4 (F := Ideal) x s (ix2 (0 : Fin 1) j) = s (ix2 (0 : Fin 1) j) + ∑ r : Fin 5000, x (ix2 r j) := by
  unfold k1_pay4 k1_pay3
  simp only [shapeCast_self]
  rw [addf_apply, row_apply, colsum_apply]

/-- The running sum of squares after a point: the running row plus the column sums of the block's squares. -/
theorem sq_apply (x : FVec Ideal S5000x96 .f32) (q : FVec Ideal S1x96 .f32) (j : Fin 96) :
    k1_pay5 (F := Ideal) x q (ix2 (0 : Fin 1) j) = q (ix2 (0 : Fin 1) j) + ∑ r : Fin 5000, x (ix2 r j) * x (ix2 r j) := by
  unfold k1_pay5 k1_pay3
  simp only [shapeCast_self]
  rw [addf_apply, row_apply, colsum_apply]
  rfl

/-- The reset rows are zero rows. -/
theorem zero1_apply (i : S1x96.Idx) : k1_pay1 (F := Ideal) i = Ideal.ofBits .f32 0x00000000#32 := rfl
theorem zero2_apply (i : S1x96.Idx) : k1_pay2 (F := Ideal) i = Ideal.ofBits .f32 0x00000000#32 := rfl

end Cert.KernelIdeal.Stats

end
-- ==== Proof.RealValued.lean ====
/-
  Real-valued extended reals.

  An extended real is REAL-VALUED when it is neither of the two infinities, i.e. it is the image of a real
  number.  Sums, products, differences and maxima of real-valued numbers are real-valued, and the laws of a
  field (distributivity, cancellation) hold among them although they fail at the infinities; the
  certificate's one non-trivial law, "mean of squares minus square of mean equals mean of squared
  deviations", is used only on such numbers.
-/
import Idealize.ShloMosaic.PureOps.Ideal

namespace Cert.RealValued

/-- `x` is the image of a real number. -/
def IsReal (x : EReal) : Prop := ∃ r : ℝ, x = (r : EReal)

/-- Every entry of the family `v` is real-valued. -/
def AllReal {ι : Type} (v : ι → EReal) : Prop := ∀ i, IsReal (v i)

theorem isReal_coe (r : ℝ) : IsReal (r : EReal) := ⟨r, rfl⟩

theorem isReal_zero : IsReal (0 : EReal) := ⟨0, rfl⟩

end Cert.RealValued
-- ==== Proof.RealLaws.lean ====
/-
  Laws of real-valued extended reals.

  The extended reals are not a ring: distributivity and cancellation fail at the infinities.  Among the
  real-valued ones (images of real numbers) every sum, difference, product, maximum and quotient by a
  nonzero real is again real-valued and is the image of the same operation on the reals, so any identity
  of real algebra transfers.  The one such identity this certificate needs is the variance law: the mean
  of the squares minus the square of the mean is the mean of the squared deviations from the mean, when
  the divisor is the number of terms.

  Also here: two facts about finite sums in any commutative monoid (a sum over 50000 rows regrouped as 10
  blocks of 5000 rows; a running accumulator equals the sum of what was added to it) and the values of two
  float constants.
-/
import Idealize.ShloMosaic.PureOps.Ideal
import Idealize.ShloMosaic.PureOps.Ideal.Laws
import proofs.«151547_j68332929679679_2_alg».proof.Proof.RealValued
import Mathlib.Algebra.BigOperators.Fin
import Mathlib.Logic.Equiv.Fin.Basic
import Mathlib.Tactic.Ring
import Mathlib.Tactic.FieldSimp
import Mathlib.Tactic.Linarith

noncomputable section

namespace Cert.RealValued

open Idealize.ShloMosaic
open scoped BigOperators

/-! ### Closure of real-valuedness -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- The inclusion of the reals is monotone, so it commutes with the maximum. -/
theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A quotient by a nonzero real is the product with its reciprocal. -/
theorem IsReal.div_coe {x : EReal} (hx : IsReal x) {c : ℝ} (hc : c ≠ 0) : IsReal (Ideal.div x (c : EReal)) := by
  rw [Ideal.div_coe hc]
  exact hx.mul (isReal_coe _)

/-! ### The variance law -/

/-- Mean of squares minus square of mean equals mean of squared deviations, for `n` real-valued numbers
    divided by `c = n`.  With `μ = (Σ hₖ)/c`: `Σ (hₖ - μ)² = Σ hₖ² - 2 μ Σ hₖ + n μ²`, and `Σ hₖ = c μ`, `n = c`
    give `Σ hₖ² - c μ²`; dividing by `c` is the left side.  False at the infinities (there `∞ - ∞` appears),
    hence the hypothesis. -/
theorem variance_law {n : ℕ} (c : ℝ) (hn : (n : ℝ) = c) (hc : c ≠ 0) (h : Fin n → EReal) (hr : AllReal h) :
    Ideal.div (∑ k, h k * h k) (c : EReal) - Ideal.div (∑ k, h k) (c : EReal) * Ideal.div (∑ k, h k) (c : EReal)
      = Ideal.div (∑ k, (h k - Ideal.div (∑ k, h k) (c : EReal)) * (h k - Ideal.div (∑ k, h k) (c : EReal))) (c : EReal) := by
  choose g hg using hr
  simp only [hg, Ideal.div_coe hc]
  have hS : (∑ k, ((g k : ℝ) : EReal)) = ((∑ k, g k : ℝ) : EReal) := (coe_sum _ _).symm
  have hQ : (∑ k, ((g k : ℝ) : EReal) * ((g k : ℝ) : EReal)) = ((∑ k, g k * g k : ℝ) : EReal) := by
    rw [coe_sum]
    exact Finset.sum_congr rfl fun k _ => (EReal.coe_mul _ _).symm
  rw [hS, hQ]
  obtain ⟨μ, hμ⟩ : ∃ μ : ℝ, μ = (∑ k, g k) * (1 / c) := ⟨_, rfl⟩
  have hm : ((∑ k, g k : ℝ) : EReal) * ((1 / c : ℝ) : EReal) = (μ : EReal) := by
    rw [hμ, EReal.coe_mul]
  rw [hm]
  have hD : (∑ k, (((g k : ℝ) : EReal) - (μ : EReal)) * (((g k : ℝ) : EReal) - (μ : EReal)))
      = ((∑ k, (g k - μ) * (g k - μ) : ℝ) : EReal) := by
    rw [coe_sum]
    refine Finset.sum_congr rfl fun k _ => ?_
    rw [← EReal.coe_sub, ← EReal.coe_mul]
  rw [hD, ← EReal.coe_mul, ← EReal.coe_mul, ← EReal.coe_mul, ← EReal.coe_sub]
  congr 1
  have hexp : ∑ k, (g k - μ) * (g k - μ) = ∑ k, g k * g k - 2 * μ * ∑ k, g k + (n : ℝ) * (μ * μ) := by
    have e : ∀ k, (g k - μ) * (g k - μ) = g k * g k - 2 * μ * g k + μ * μ := fun k => by ring
    simp only [e, Finset.sum_add_distrib, Finset.sum_sub_distrib, ← Finset.mul_sum, Finset.sum_const,
      Finset.card_univ, Fintype.card_fin, nsmul_eq_mul]
    ring
  have hS' : ∑ k, g k = μ * c := by
    rw [hμ]
    field_simp
  rw [hexp, hn, hS']
  field_simp
  ring

/-! ### Two float constants -/

/-- The pattern `0x47435000`: sign `+`, exponent `142 - 127 = 15`, significand `1 + 0x435000 / 2^23`; the real `50000`. -/
theorem ofBits_50000 : Ideal.ofBits .f32 0x47435000#32 = ((50000 : ℝ) : EReal) := by
  simp [Ideal.ofBits, Ideal.ieee, -EReal.coe_mul]; norm_num

/-- The all-zero pattern is `0`. -/
theorem ofBits_zero : Ideal.ofBits .f32 0x00000000#32 = 0 := Ideal.ofBits_zero_f32

/-! ### Regrouping a sum into blocks -/

/-- A sum over `a * b` indices is the sum over `a` blocks of the sums over the `b` indices of each block: the pair
    `(t, r)` is the index `r + b * t`, and the pairs are in bijection with the indices. -/
theorem sum_blocks_gen {M : Type} [AddCommMonoid M] (a b : ℕ) (f : Fin (a * b) → M) :
    ∑ t : Fin a, ∑ r : Fin b, f (finProdFinEquiv (t, r)) = ∑ n : Fin (a * b), f n := by
  rw [← Finset.sum_product', Finset.univ_product_univ]
  exact Fintype.sum_equiv finProdFinEquiv _ _ (fun _ => rfl)

/-- 50000 rows are 10 blocks of 5000 rows. -/
theorem sum_blocks {M : Type} [AddCommMonoid M] (f : Fin 50000 → M) :
    ∑ t : Fin 10, ∑ r : Fin 5000, f ⟨5000 * t.val + r.val, by have := t.isLt; have := r.isLt; omega⟩ = ∑ n : Fin 50000, f n := by
  refine (Finset.sum_congr rfl fun t _ => Finset.sum_congr rfl fun r _ => ?_).trans (sum_blocks_gen 10 5000 f)
  exact congrArg f (Fin.ext (Nat.add_comm _ _))

/-! ### A running accumulator -/

/-- An accumulator that starts at `0 + b 0` and adds `b (n + 1)` at step `n + 1` holds `b 0 + … + b n` after step `n`. -/
theorem acc_eq_sum {M : Type} [AddCommMonoid M] (b acc : ℕ → M) (h0 : acc 0 = 0 + b 0)
    (hs : ∀ n, acc (n + 1) = acc n + b (n + 1)) (n : ℕ) : acc n = ∑ t ∈ Finset.range (n + 1), b t := by
  induction n with
  | zero => rw [h0, zero_add, Finset.sum_range_one]
  | succ n ih => rw [hs, ih, Finset.sum_range_succ _ (n + 1)]

/-- After ten steps (`0` to `9`) the accumulator holds the sum of the ten contributions. -/
theorem acc9 {M : Type} [AddCommMonoid M] (b acc : ℕ → M) (h0 : acc 0 = 0 + b 0)
    (hs : ∀ n, acc (n + 1) = acc n + b (n + 1)) : acc 9 = ∑ t : Fin 10, b t.val := by
  rw [acc_eq_sum b acc h0 hs 9]
  exact (Fin.sum_univ_eq_sum_range b 10).symm

end Cert.RealValued

end
-- ==== Proof.StatsRegion.lean ====
/-
  The statistics region: what its two result rows end holding.

  The second kernel runs over ten grid points.  Point `t` loads rows 5000·t … 5000·t + 4999 of its one input
  array and adds, into two running rows [1, 96] that stay in their buffers from point to point, the block's column
  sums and the column sums of its squares; at the first point the running rows are first set to zero.  The rows are
  written back once, after the last point.  So each result row ends holding zero plus the sum over the ten blocks
  of the block's column sums, and the ten blocks tile the 50000 rows: zero plus the column sums over all rows.
-/
import proofs.«151547_j68332929679679_2_alg».proof.Proof.Gen.KernelIdeal.Frame
import proofs.«151547_j68332929679679_2_alg».proof.Proof.StatsPayload
import proofs.«151547_j68332929679679_2_alg».proof.Proof.RealLaws
import Idealize.ShloMosaic.Lib.Pipeline.Value
import Idealize.ShloMosaic.Lib.Tactic

set_option maxRecDepth 16384

noncomputable section

namespace Cert.KernelIdeal.Stats

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

section Cases
variable {F : FTy → Type} [FloatOps F]

/-- At a point other than the first, the body leaves in the first output's buffer the running row plus the block's
    column sums: its one store covers the buffer, and its loads read the whole buffers. -/
theorem out_B_1 (c : Dev nD) (i : grid1.Coords) (a1 : Memref sig .tc .vmem S5000x96 .f32) (h1 : a1.IsWhole)
    (a2 : Memref sig .tc .vmem S1x96 .f32) (h2 : a2.IsWhole) (a3 : Memref sig .tc .vmem S1x96 .f32) (h3 : a3.IsWhole)
    (hc : ¬cond1_0 i) (x : Vec F S5000x96 .f32) (xo1 xo2 : Vec F S1x96 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S5000x96) hz,
    View.ld_unit_zero (S := S1x96) hz]

/-- Likewise the second output: the running row plus the column sums of the block's squares. -/
theorem out_B_2 (c : Dev nD) (i : grid1.Coords) (a1 : Memref sig .tc .vmem S5000x96 .f32) (h1 : a1.IsWhole)
    (a2 : Memref sig .tc .vmem S1x96 .f32) (h2 : a2.IsWhole) (a3 : Memref sig .tc .vmem S1x96 .f32) (h3 : a3.IsWhole)
    (hc : ¬cond1_0 i) (x : Vec F S5000x96 .f32) (xo1 xo2 : Vec F S1x96 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S5000x96) hz,
    View.ld_unit_zero (S := S1x96) hz]

/-- At the first point the body first stores the zero row, reads it back, and leaves the zero row plus the block's
    column sums. -/
theorem out_A_1 (c : Dev nD) (i : grid1.Coords) (a1 : Memref sig .tc .vmem S5000x96 .f32) (h1 : a1.IsWhole)
    (a2 : Memref sig .tc .vmem S1x96 .f32) (h2 : a2.IsWhole) (a3 : Memref sig .tc .vmem S1x96 .f32) (h3 : a3.IsWhole)
    (hc : cond1_0 i) (x : Vec F S5000x96 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x96) hz, View.readCov_unit_zero (S := S1x96) _ hz]
  simp only [View.readAt_eq_ld, h1.read_unread, View.ld_unit_zero (S := S5000x96) hz]

/-- Likewise the second output at the first point. -/
theorem out_A_2 (c : Dev nD) (i : grid1.Coords) (a1 : Memref sig .tc .vmem S5000x96 .f32) (h1 : a1.IsWhole)
    (a2 : Memref sig .tc .vmem S1x96 .f32) (h2 : a2.IsWhole) (a3 : Memref sig .tc .vmem S1x96 .f32) (h3 : a3.IsWhole)
    (hc : cond1_0 i) (x : Vec F S5000x96 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x96) hz, View.readCov_unit_zero (S := S1x96) _ hz]
  simp only [View.readAt_eq_ld, h1.read_unread, View.ld_unit_zero (S := S5000x96) hz]

end Cases

section Finals

variable (V : (c : Dev nD) → (b : Ref sig .tc) → Buf (Elt Ideal) ((c : Thread nD τ).loc b))

/-- The input window's index map over the grid: one block of 5000 rows per point, all 96 columns. -/
theorem idx_facts : ∀ t : Fin cfg1.N, win1_0.index t (0 : Fin 2) = t.val ∧ win1_0.index t (1 : Fin 2) = 0 :=
  (by decide +kernel : ∀ t : Fin grid1.N, _)

/-- The region's one input array [50000, 96], as the region finds it. -/
abbrev hin (c : Dev nD) : FVec Ideal S50000x96 .f32 := V c main_v24

/-- Entry (k, q) of the input array, as a total function of a natural row index (zero past the last row). -/
def hrow (c : Dev nD) (k : ℕ) (q : Fin 96) : EReal :=
  if hk : k < 50000 then V c main_v24 (ix2 (⟨k, hk⟩ : Fin 50000) q) else 0

/-- Row r of point t's block is row 5000·t + r of the array. -/
theorem blk_apply (c : Dev nD) (t : Fin cfg1.N) (r : Fin 5000) (q : Fin 96) :
    iblk1 V c 0 t (ix2 r q) = hrow V c (5000 * t.val + r.val) q := by
  obtain ⟨e0, e1⟩ := idx_facts t
  have hN : cfg1.N = 10 := N_1
  have ht := t.isLt
  have hr := r.isLt
  unfold hrow
  rw [dif_pos (by omega)]
  unfold iblk1
  rw [View.read_apply]
  show V c main_v24 _ = V c main_v24 _
  refine congrArg (V c main_v24) (funext fun a => Fin.ext ?_)
  match a with
  | ⟨0, _⟩ => show win1_0.index t (0 : Fin 2) * 5000 + 1 * r.val = 5000 * t.val + r.val; omega
  | ⟨1, _⟩ => show win1_0.index t (1 : Fin 2) * 96 + 1 * q.val = q.val; omega

/-- Ten blocks of 5000 rows are the 50000 rows. -/
theorem blocks_sum (f : Fin 50000 → EReal) (g : ℕ → EReal) (hg : ∀ n : Fin 50000, g n.val = f n) :
    ∑ t ∈ Finset.range 10, ∑ r : Fin 5000, g (5000 * t + r.val) = ∑ n : Fin 50000, f n := by
  rw [← Fin.sum_univ_eq_sum_range (fun t => ∑ r : Fin 5000, g (5000 * t + r.val)) 10,
    ← Cert.RealValued.sum_blocks f]
  exact Finset.sum_congr rfl fun t _ => Finset.sum_congr rfl fun r _ =>
    hg ⟨5000 * t.val + r.val, by have := t.isLt; have := r.isLt; omega⟩

/-- The first point: the zero rows plus the first block's column sums. -/
theorem outs_zero (c : Dev nD) (hn : 0 < cfg1.N) :
    outsAt1 V c 0 hn = (k1_pay4 (iblk1 V c 0 ⟨0, hn⟩) (k1_pay1 (F := Ideal)), k1_pay5 (iblk1 V c 0 ⟨0, hn⟩) (k1_pay2 (F := Ideal))) := by
  refine (outsAt1_A V c ⟨0, hn⟩ rfl).trans ?_
  rw [out_A_1, out_A_2]

/-- A later point: the rows the point before left, plus this block's column sums. -/
theorem outs_succ (c : Dev nD) (n : ℕ) (hn : n + 1 < cfg1.N) :
    outsAt1 V c (n + 1) hn = (k1_pay4 (iblk1 V c 0 ⟨n + 1, hn⟩) (outsAt1 V c n (Nat.lt_of_succ_lt hn)).1,
      k1_pay5 (iblk1 V c 0 ⟨n + 1, hn⟩) (outsAt1 V c n (Nat.lt_of_succ_lt hn)).2) := by
  have hN : cfg1.N = 10 := N_1
  have hB : ¬(⟨n + 1, hn⟩ : Fin cfg1.N).val % 10 = 0 := by dsimp only; omega
  refine (outsAt1_B V c ⟨n + 1, hn⟩ hB).trans ?_
  rw [out_B_1, out_B_2]
  rfl

/-- A block's column sum at column q, through the array's rows. -/
theorem blk_sum (c : Dev nD) (t : ℕ) (ht : t < cfg1.N) (q : Fin 96) (x : FVec Ideal S5000x96 .f32)
    (hx : x = iblk1 V c 0 ⟨t, ht⟩) :
    ∑ r : Fin 5000, x (ix2 r q) = ∑ r : Fin 5000, hrow V c (5000 * t + r.val) q := by
  subst hx
  exact Finset.sum_congr rfl fun r _ => blk_apply V c ⟨t, ht⟩ r q

/-- A block's column sum of squares at column q, through the array's rows. -/
theorem blk_sq (c : Dev nD) (t : ℕ) (ht : t < cfg1.N) (q : Fin 96) (x : FVec Ideal S5000x96 .f32)
    (hx : x = iblk1 V c 0 ⟨t, ht⟩) :
    ∑ r : Fin 5000, x (ix2 r q) * x (ix2 r q)
      = ∑ r : Fin 5000, hrow V c (5000 * t + r.val) q * hrow V c (5000 * t + r.val) q := by
  subst hx
  exact Finset.sum_congr rfl fun r _ => by rw [blk_apply V c ⟨t, ht⟩ r q]

/-- THE ACCUMULATION, in closed form: after point n the two running rows hold, at column q, zero plus the sum over
    the blocks 0 … n of the block's column sum (of its squares) — by induction on the point. -/
theorem outs_apply (c : Dev nD) (q : Fin 96) (n : ℕ) : ∀ hn : n < cfg1.N,
    (outsAt1 V c n hn).1 (ix2 (0 : Fin 1) q)
        = Ideal.ofBits .f32 0x00000000#32 + ∑ t ∈ Finset.range (n + 1), ∑ r : Fin 5000, hrow V c (5000 * t + r.val) q
    ∧ (outsAt1 V c n hn).2 (ix2 (0 : Fin 1) q)
        = Ideal.ofBits .f32 0x00000000#32
          + ∑ t ∈ Finset.range (n + 1), ∑ r : Fin 5000, hrow V c (5000 * t + r.val) q * hrow V c (5000 * t + r.val) q := by
  induction n with
  | zero =>
    intro hn
    rw [outs_zero]
    refine ⟨?_, ?_⟩
    · show k1_pay4 (F := Ideal) (iblk1 V c 0 ⟨0, hn⟩) (k1_pay1 (F := Ideal)) (ix2 (0 : Fin 1) q) = _
      rw [sum_apply, zero1_apply, blk_sum V c 0 hn q _ rfl, Finset.sum_range_one]
    · show k1_pay5 (F := Ideal) (iblk1 V c 0 ⟨0, hn⟩) (k1_pay2 (F := Ideal)) (ix2 (0 : Fin 1) q) = _
      rw [sq_apply, zero2_apply, blk_sq V c 0 hn q _ rfl, Finset.sum_range_one]
  | succ n ih =>
    intro hn
    obtain ⟨ih1, ih2⟩ := ih (Nat.lt_of_succ_lt hn)
    rw [outs_succ]
    refine ⟨?_, ?_⟩
    · show k1_pay4 (F := Ideal) (iblk1 V c 0 ⟨n + 1, hn⟩) (outsAt1 V c n (Nat.lt_of_succ_lt hn)).1 (ix2 (0 : Fin 1) q) = _
      rw [sum_apply, ih1, blk_sum V c (n + 1) hn q _ rfl, Finset.sum_range_succ _ (n + 1), add_assoc]
    · show k1_pay5 (F := Ideal) (iblk1 V c 0 ⟨n + 1, hn⟩) (outsAt1 V c n (Nat.lt_of_succ_lt hn)).2 (ix2 (0 : Fin 1) q) = _
      rw [sq_apply, ih2, blk_sq V c (n + 1) hn q _ rfl, Finset.sum_range_succ _ (n + 1), add_assoc]

/-- The two running rows after the last point, as contents of the two result arrays. -/
def result1 (c : Dev nD) : Buf (Elt Ideal) ((c : Thread nD τ).loc main_v25_0) :=
  (outsAt1 V c 9 (by rw [show cfg1.N = 10 from N_1]; decide)).1
def result2 (c : Dev nD) : Buf (Elt Ideal) ((c : Thread nD τ).loc main_v25_1) :=
  (outsAt1 V c 9 (by rw [show cfg1.N = 10 from N_1]; decide)).2

/-- The one write-back of the first result, after point 9, writes the running row: block (0, 0) of the [1, 96] array
    read through zero offsets is the array. -/
theorem flushed_eq1 (c : Dev nD) (t : Fin cfg1.N) (hf : (cfg1.win 1).flush t = true) :
    (dat1 V c).flushed 1 t = ((cfg1.win 1).blk t).view.read (Elt Ideal) (result1 V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1]
  have hz' : (fun a => win1_1.index t1_9 a * main_v25_0.ty.shape.size a) = fun _ => 0 :=
    funext fun a => by fin_cases a <;> decide
  exact (Memref.read_access_unit_zero (Elt Ideal) main_v25_0 hz' (fun a => by rw [congrFun hz' a]; simp) (result1 V c)).symm

theorem flushed_eq2 (c : Dev nD) (t : Fin cfg1.N) (hf : (cfg1.win 2).flush t = true) :
    (dat1 V c).flushed 2 t = ((cfg1.win 2).blk t).view.read (Elt Ideal) (result2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v25_1.ty.shape.size a) = fun _ => 0 :=
    funext fun a => by fin_cases a <;> decide
  exact (Memref.read_access_unit_zero (Elt Ideal) main_v25_1 hz' (fun a => by rw [congrFun hz' a]; simp) (result2 V c)).symm

/-- So the first result array ends holding the running row after point 9: that point's block is the whole array. -/
theorem final1 (c : Dev nD) : (dat1 V c).arrAt 1 cfg1.N = result1 V c :=
  (dat1 V c).arrAt_eq_of_cover 1 (result1 V c) (flushed_eq1 V c) fun i =>
    ⟨t1_9, (flush1_1 t1_9).mpr rfl, by
      show i ∈ ((View.whole main_v25_0).slice (win1_1.rect t1_9)).set
      rw [View.set_slice_whole, Rect.mem_set_unit]
      intro a
      have h0 : (i 0 : Nat) < 1 := (i 0).isLt
      have h1 : (i 1 : Nat) < 96 := (i 1).isLt
      match a with
      | ⟨0, _⟩ =>
        show win1_1.index t1_9 0 * win1_1.size 0 ≤ (i 0 : Nat) ∧ (i 0 : Nat) < win1_1.index t1_9 0 * win1_1.size 0 + win1_1.xsize (grid1.coords t1_9) 0
        rw [show win1_1.index t1_9 0 * win1_1.size 0 = 0 from by decide +kernel, show win1_1.xsize (grid1.coords t1_9) 0 = 1 from by decide +kernel]; omega
      | ⟨1, _⟩ =>
        show win1_1.index t1_9 1 * win1_1.size 1 ≤ (i 1 : Nat) ∧ (i 1 : Nat) < win1_1.index t1_9 1 * win1_1.size 1 + win1_1.xsize (grid1.coords t1_9) 1
        rw [show win1_1.index t1_9 1 * win1_1.size 1 = 0 from by decide +kernel, show win1_1.xsize (grid1.coords t1_9) 1 = 96 from by decide +kernel]; omega⟩

theorem final2 (c : Dev nD) : (dat1 V c).arrAt 2 cfg1.N = result2 V c :=
  (dat1 V c).arrAt_eq_of_cover 2 (result2 V c) (flushed_eq2 V c) fun i =>
    ⟨t1_9, (flush1_2 t1_9).mpr rfl, by
      show i ∈ ((View.whole main_v25_1).slice (win1_2.rect t1_9)).set
      rw [View.set_slice_whole, Rect.mem_set_unit]
      intro a
      have h0 : (i 0 : Nat) < 1 := (i 0).isLt
      have h1 : (i 1 : Nat) < 96 := (i 1).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 1 from by decide +kernel]; omega
      | ⟨1, _⟩ =>
        show win1_2.index t1_9 1 * win1_2.size 1 ≤ (i 1 : Nat) ∧ (i 1 : Nat) < win1_2.index t1_9 1 * win1_2.size 1 + win1_2.xsize (grid1.coords t1_9) 1
        rw [show win1_2.index t1_9 1 * win1_2.size 1 = 0 from by decide +kernel, show win1_2.xsize (grid1.coords t1_9) 1 = 96 from by decide +kernel]; omega⟩

/-- THE FIRST RESULT: at column q, zero plus the sum of column q over all 50000 rows of the input array. -/
theorem final_sum (c : Dev nD) (q : Fin 96) :
    (dat1 V c).arrAt 1 cfg1.N (ix2 (0 : Fin 1) q)
      = Ideal.ofBits .f32 0x00000000#32 + ∑ n : Fin 50000, hin V c (ix2 n q) := by
  rw [final1]
  refine ((outs_apply V c q 9 _).1).trans (congrArg (Ideal.ofBits .f32 0x00000000#32 + ·) ?_)
  exact blocks_sum (fun n => hin V c (ix2 n q)) (fun k => hrow V c k q)
    (fun n => by unfold hrow; rw [dif_pos n.isLt])

/-- THE SECOND RESULT: at column q, zero plus the sum of the squares of column q over all 50000 rows. -/
theorem final_sq (c : Dev nD) (q : Fin 96) :
    (dat1 V c).arrAt 2 cfg1.N (ix2 (0 : Fin 1) q)
      = Ideal.ofBits .f32 0x00000000#32 + ∑ n : Fin 50000, hin V c (ix2 n q) * hin V c (ix2 n q) := by
  rw [final2]
  refine ((outs_apply V c q 9 _).2).trans (congrArg (Ideal.ofBits .f32 0x00000000#32 + ·) ?_)
  exact blocks_sum (fun n => hin V c (ix2 n q) * hin V c (ix2 n q)) (fun k => hrow V c k q * hrow V c k q)
    (fun n => by unfold hrow; rw [dif_pos n.isLt])

end Finals

end Cert.KernelIdeal.Stats

end
-- ==== Proof.KernelValue.lean ====
/-
  The idealized kernel's result array, at an index.

  Reading the fold backwards: the result array is what the third region leaves, the normalisation of the array
  `h` (what the first region left: the perceptron of node features plus aggregated messages) by the column means
  and variances the host computed from the two rows the second region accumulated — the column sums of `h` and
  of its squares over all 50000 rows.  So at row p, column q the result is
      max((h[p,q] − μ) · rsqrt(v + ε) · γ[q] + β[q], 0),   μ = (0 + ∑ₙ h[n,q]) / 50000,
      v = (0 + ∑ₙ h[n,q]²) / 50000 − μ · μ .
-/
import proofs.«151547_j68332929679679_2_alg».proof.Proof.HostStretches
import proofs.«151547_j68332929679679_2_alg».proof.Proof.NormRegion
import proofs.«151547_j68332929679679_2_alg».proof.Proof.StatsRegion

set_option maxRecDepth 16384

noncomputable section

namespace Cert.KernelIdeal.Fold

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The column mean of an array of 50000 rows, as the kernel computes it. -/
def colMean (h : Vec Ideal S50000x96 .f32) (q : Fin 96) : EReal :=
  Ideal.div (Ideal.ofBits .f32 0x00000000#32 + ∑ n : Fin 50000, h (ix2 n q)) (Ideal.ofBits .f32 0x47435000#32)

/-- The column variance as the kernel computes it: mean of squares minus square of mean. -/
def colVar (h : Vec Ideal S50000x96 .f32) (q : Fin 96) : EReal :=
  Ideal.div (Ideal.ofBits .f32 0x00000000#32 + ∑ n : Fin 50000, h (ix2 n q) * h (ix2 n q)) (Ideal.ofBits .f32 0x47435000#32)
    - colMean h q * colMean h q

/-- The array the first region leaves, the scale and the shift, typed as arrays of extended reals. -/
abbrev hk (c : Dev nD) : Vec Ideal S50000x96 .f32 := V4 m ρ c main_v24
abbrev gam (c : Dev nD) : Vec Ideal S96 .f32 := m ((c : Thread nD τ).loc main_arg9)
abbrev bet (c : Dev nD) : Vec Ideal S96 .f32 := m ((c : Thread nD τ).loc main_arg10)

/-- The normalisation of whole arrays, read at (p, q). -/
theorem normed_apply (h : Vec Ideal S50000x96 .f32) (mu va ga be : Vec Ideal S1x96 .f32) (p : Fin 50000) (q : Fin 96) :
    Norm.normed h mu va ga be (ix2 p q)
      = max ((h (ix2 p q) - mu (ix2 (0 : Fin 1) q)) * Ideal.rsqrt (va (ix2 (0 : Fin 1) q) + Ideal.ofBits .f32 0x3727C5AC#32)
          * ga (ix2 (0 : Fin 1) q) + be (ix2 (0 : Fin 1) q)) (Ideal.ofBits .f32 0x00000000#32) := rfl

/-- THE RESULT AT AN INDEX, in terms of the array the first region left. -/
theorem result_apply (c : Dev nD) (p : Fin 50000) (q : Fin 96) :
    W7 m ρ c (Proc.devRef .tc main_v38) (ix2 p q)
      = max ((hk m ρ c (ix2 p q) - colMean (hk m ρ c) q)
            * Ideal.rsqrt (colVar (hk m ρ c) q + Ideal.ofBits .f32 0x3727C5AC#32)
            * gam m c (ix1 q) + bet m c (ix1 q))
          (Ideal.ofBits .f32 0x00000000#32) := by
  have e : W7 m ρ c (Proc.devRef .tc main_v38) = Norm.normed (V6 m ρ c main_v24) (V6 m ρ c main_v34) (V6 m ρ c main_v35)
      (V6 m ρ c main_v36) (V6 m ρ c main_v37) := (W7_arr m ρ c 5).trans (Norm.final (V6 m ρ) c)
  rw [e, normed_apply, entry2_h, entry2_mu, entry2_var, entry2_ga, entry2_be, Stats.final_sum (V4 m ρ) c q, Stats.final_sq (V4 m ρ) c q]
  rfl

end Cert.KernelIdeal.Fold

end
-- ==== Proof.RefNorm.lean ====
/-
  The normalisation stage of the reference, read at an index, as a function of the hidden
  activations h (the array written by the second affine layer).

  For a column q the reference takes the mean of h's column, the mean of the squared deviations
  from that mean (the variance), and writes  max ((h - mean) * rsqrt (var + eps) * gamma + beta) 0.
  Every layout operation of the stage (the broadcasts of a row over the 50000 rows) reads one
  element of its operand, so at an index (p, q) the result is that closed expression in h's
  column q; the two column sums are the reference's sums over the 50000 rows.
-/
import proofs.«151547_j68332929679679_2_alg».proof.Proof.Gen.ReferenceIdeal.Read

noncomputable section

namespace Cert.ReferenceIdeal.RefValue

open Idealize.ShloMosaic Idealize.ShloMosaic.ValueIdx Cert.ReferenceIdeal Cert.ReferenceIdeal.Read
open scoped BigOperators

variable [Cert.ReferenceIdeal.Facts]

/-- The mean of column `q` of `H`: the sum over the 50000 rows (started at the constant 0.0),
    divided by the constant 50000.0. -/
def refMean (H : (⟨S50000x96, .f32⟩ : BufTy).Contents (Elt Ideal)) (q : Fin 96) : EReal :=
  Ideal.div (Ideal.ofBits .f32 0x00000000#32 + ∑ k : Fin 50000, H (ix2 k q)) (Ideal.ofBits .f32 0x47435000#32)

/-- The variance of column `q` of `H`: the mean of the squared deviations from the column's mean. -/
def refVar (H : (⟨S50000x96, .f32⟩ : BufTy).Contents (Elt Ideal)) (q : Fin 96) : EReal :=
  Ideal.div (Ideal.ofBits .f32 0x00000000#32
      + ∑ k : Fin 50000, (H (ix2 k q) - refMean H q) * (H (ix2 k q) - refMean H q))
    (Ideal.ofBits .f32 0x47435000#32)

/-- The reference's column mean (the quotient of the column sum by 50000.0) is `refMean` of h. -/
theorem mean_apply (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal)) (q : Fin 96) :
    val_main_v32 (F := Ideal) x0 x1 x2 x3 x4 x5 x6 x7 x8 (ix1 q)
      = refMean (val_main_v29 (F := Ideal) x0 x1 x2 x3 x4 x5 x6 x7 x8) q := by
  have e30 : ∀ k : Fin 50000, idx_main_v30 (ix1 q) k = ix2 k q := fun k =>
    funext fun a => Fin.ext (by match a with | ⟨0, _⟩ => rfl | ⟨1, _⟩ => rfl)
  rw [val_main_v32_apply, val_main_v30_apply, val_main_v31_apply, val_main_cst_2_apply, val_main_cst_1_apply]
  simp only [e30, Ideal.hostDivf_def, Ideal.ofBits_def, refMean]

/-- The reference's column variance (the quotient by 50000.0 of the column sum of the squared
    deviations from the column mean) is `refVar` of h. -/
theorem var_apply (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal)) (q : Fin 96) :
    val_main_v39 (F := Ideal) x0 x1 x2 x3 x4 x5 x6 x7 x8 (ix1 q)
      = refVar (val_main_v29 (F := Ideal) x0 x1 x2 x3 x4 x5 x6 x7 x8) q := by
  have e37 : ∀ k : Fin 50000, idx_main_v37 (ix1 q) k = ix2 k q := fun k =>
    funext fun a => Fin.ext (by match a with | ⟨0, _⟩ => rfl | ⟨1, _⟩ => rfl)
  have e34 : ∀ k : Fin 50000, idx_main_v33 (idx_main_v34 (ix2 k q)) = ix1 q := fun k =>
    funext fun a => Fin.ext (by match a with | ⟨0, _⟩ => rfl)
  rw [val_main_v39_apply, val_main_v37_apply, val_main_v38_apply, val_main_cst_4_apply, val_main_cst_3_apply]
  simp only [e37, val_main_v36_apply, val_main_v35_apply, val_main_v34_apply, val_main_v33_apply, e34, mean_apply,
    Ideal.hostDivf_def, Ideal.ofBits_def, Ideal.mulf_def, Ideal.subf_def, refVar]

/-- The reference's result at row `p`, column `q`: the deviation of h from its column mean, scaled by
    the reciprocal square root of the column variance plus the constant 1e-5 (as an f32), then by
    gamma, shifted by beta, and clamped below at 0. -/
theorem out_apply (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) (x8 x9 x10 : (⟨S96, .f32⟩ : BufTy).Contents (Elt Ideal)) (p : Fin 50000) (q : Fin 96) :
    val_main_v55 (F := Ideal) x0 x1 x2 x3 x4 x5 x6 x7 x8 x9 x10 (ix2 p q)
      = max (((val_main_v29 (F := Ideal) x0 x1 x2 x3 x4 x5 x6 x7 x8) (ix2 p q) - refMean (val_main_v29 (F := Ideal) x0 x1 x2 x3 x4 x5 x6 x7 x8) q)
              * Ideal.rsqrt (refVar (val_main_v29 (F := Ideal) x0 x1 x2 x3 x4 x5 x6 x7 x8) q + Ideal.ofBits .f32 0x3727C5AC#32)
              * x9 (ix1 q) + x10 (ix1 q)) 0 := by
  have e41 : idx_main_v40 (idx_main_v41 (ix2 p q)) = ix1 q :=
    funext fun a => Fin.ext (by match a with | ⟨0, _⟩ => rfl)
  have e47 : idx_main_v46 (idx_main_v47 (ix2 p q)) = ix1 q :=
    funext fun a => Fin.ext (by match a with | ⟨0, _⟩ => rfl)
  have e50 : idx_main_v49 (idx_main_v50 (ix2 p q)) = ix1 q :=
    funext fun a => Fin.ext (by match a with | ⟨0, _⟩ => rfl)
  have e53 : idx_main_v52 (idx_main_v53 (ix2 p q)) = ix1 q :=
    funext fun a => Fin.ext (by match a with | ⟨0, _⟩ => rfl)
  rw [val_main_v55_apply, val_main_v54_apply, val_main_v51_apply, val_main_v48_apply, val_main_v42_apply,
    val_main_v41_apply, val_main_v40_apply, e41, mean_apply,
    val_main_v47_apply, val_main_v46_apply, e47, val_main_v45_apply, val_main_v44_apply, var_apply,
    val_main_v43_apply, val_main_cst_5_apply,
    val_main_v50_apply, val_main_v49_apply, e50, val_main_v53_apply, val_main_v52_apply, e53,
    val_main_call2_v0_apply, val_main_call2_cst_apply]
  simp only [Ideal.maximumf_def, Ideal.addf_def, Ideal.mulf_def, Ideal.subf_def, Ideal.hostUnary_rsqrt_def,
    Ideal.ofBits_def, Ideal.ofBits_zero_f32]

end Cert.ReferenceIdeal.RefValue

end
-- ==== Proof.RefBridge.lean ====
/-
  The bridge between the two forms of the batch normalisation.

  The reference computes a column's variance as the mean of the squared deviations from the column's mean;
  the other form computes it from a sum and a sum of squares, as the mean of the squares minus the square of
  the mean.  On real-valued columns the two agree (the variance law), so the normalised outputs agree.
-/
import proofs.«151547_j68332929679679_2_alg».proof.Proof.RefNorm
import proofs.«151547_j68332929679679_2_alg».proof.Proof.RealLaws

noncomputable section

namespace Cert.ReferenceIdeal.RefValue

open Idealize.ShloMosaic Idealize.ShloMosaic.ValueIdx Cert.ReferenceIdeal Cert.ReferenceIdeal.Read Cert.RealValued
open scoped BigOperators

variable [Cert.ReferenceIdeal.Facts]

/-- On a real-valued array, the mean of a column's squares minus the square of the column's mean is the
    column's variance (the mean of the squared deviations): the variance law over the 50000 rows, the two
    constants read as the reals 0 and 50000. -/
theorem var_bridge (H : (⟨S50000x96, .f32⟩ : BufTy).Contents (Elt Ideal)) (hH : AllReal H) (q : Fin 96) :
    Ideal.div (Ideal.ofBits .f32 0x00000000#32 + ∑ n : Fin 50000, H (ix2 n q) * H (ix2 n q))
        (Ideal.ofBits .f32 0x47435000#32)
      - refMean H q * refMean H q = refVar H q := by
  unfold refVar refMean
  simp only [ofBits_zero, ofBits_50000, zero_add]
  exact variance_law (n := 50000) (c := 50000) (by norm_num) (by norm_num) (fun n => H (ix2 n q)) (fun n => hH _)

/-- The normalised, scaled, shifted and rectified output written with the variance as "mean of squares minus
    square of mean" is the reference's, written with the variance as the mean of squared deviations. -/
theorem norm_bridge (H : (⟨S50000x96, .f32⟩ : BufTy).Contents (Elt Ideal)) (hH : AllReal H) (g b : (⟨S96, .f32⟩ : BufTy).Contents (Elt Ideal)) (p : Fin 50000) (q : Fin 96) :
    max ((H (ix2 p q) - refMean H q)
          * Ideal.rsqrt ((Ideal.div (Ideal.ofBits .f32 0x00000000#32 + ∑ n : Fin 50000, H (ix2 n q) * H (ix2 n q))
        (Ideal.ofBits .f32 0x47435000#32)
              - refMean H q * refMean H q) + Ideal.ofBits .f32 0x3727C5AC#32)
          * g (ix1 q) + b (ix1 q)) (Ideal.ofBits .f32 0x00000000#32)
      = max ((H (ix2 p q) - refMean H q) * Ideal.rsqrt (refVar H q + Ideal.ofBits .f32 0x3727C5AC#32)
          * g (ix1 q) + b (ix1 q)) 0 := by
  rw [var_bridge H hH q, ofBits_zero]

end Cert.ReferenceIdeal.RefValue

end
-- ==== Proof.RefHidden.lean ====
/-
  The hidden activations h of the reference (the array the second affine layer writes), read at an
  index, as a function of the node features x, the aggregated messages A (the scatter's result, left
  unopened here) and the two layers' weights and biases:

    h (p, q) = (∑ k, max ((∑ l, (x (p, l) + A (p, l)) * W1 (l, k)) + b1 k) 0 * W2 (k, q)) + b2 q.

  At the ideal reading a matrix product's element is the sum over the contracted index of the
  products, a bias row broadcast over the rows reads one element of the bias, and the rectifier is
  the maximum with the constant 0.0.
-/
import proofs.«151547_j68332929679679_2_alg».proof.Proof.Gen.ReferenceIdeal.Read

noncomputable section

namespace Cert.ReferenceIdeal.RefValue

open Idealize.ShloMosaic Idealize.ShloMosaic.ValueIdx Cert.ReferenceIdeal Cert.ReferenceIdeal.Read
open scoped BigOperators

variable [Cert.ReferenceIdeal.Facts]

/-- The first layer before its rectifier, at row `p`, column `k`: the row of `x + A` times the column of
    the first weight matrix, plus the first bias. -/
theorem pre_apply (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (p : Fin 50000) (k : Fin 96) :
    val_main_v24 (F := Ideal) x0 x1 x2 x3 x4 x5 x6 (ix2 p k)
      = (∑ l : Fin 96, (x0 (ix2 p l) + (val_main_v19 (F := Ideal) x0 x1 x2 x3 x4) (ix2 p l)) * x5 (ix2 l k)) + x6 (ix1 k) := by
  have el : ∀ l : Fin 96, lidx_main_v21 (ix2 p k) l = ix2 p l := fun l =>
    funext fun a => Fin.ext (by match a with | ⟨0, _⟩ => rfl | ⟨1, _⟩ => rfl)
  have er : ∀ l : Fin 96, ridx_main_v21 (ix2 p k) l = ix2 l k := fun l =>
    funext fun a => Fin.ext (by match a with | ⟨0, _⟩ => rfl | ⟨1, _⟩ => rfl)
  have e23 : idx_main_v22 (idx_main_v23 (ix2 p k)) = ix1 k :=
    funext fun a => Fin.ext (by match a with | ⟨0, _⟩ => rfl)
  rw [val_main_v24_apply, val_main_v21_apply, val_main_v23_apply, val_main_v22_apply, e23]
  simp only [el, er, val_main_v20_apply, Ideal.addf_def]

/-- The hidden activations at row `p`, column `q`. -/
theorem h_apply (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal)) (p : Fin 50000) (q : Fin 96) :
    val_main_v29 (F := Ideal) x0 x1 x2 x3 x4 x5 x6 x7 x8 (ix2 p q)
      = (∑ k : Fin 96, max ((∑ l : Fin 96, (x0 (ix2 p l) + (val_main_v19 (F := Ideal) x0 x1 x2 x3 x4) (ix2 p l)) * x5 (ix2 l k)) + x6 (ix1 k))
            (Ideal.ofBits .f32 0x00000000#32) * x7 (ix2 k q)) + x8 (ix1 q) := by
  have el : ∀ k : Fin 96, lidx_main_v26 (ix2 p q) k = ix2 p k := fun k =>
    funext fun a => Fin.ext (by match a with | ⟨0, _⟩ => rfl | ⟨1, _⟩ => rfl)
  have er : ∀ k : Fin 96, ridx_main_v26 (ix2 p q) k = ix2 k q := fun k =>
    funext fun a => Fin.ext (by match a with | ⟨0, _⟩ => rfl | ⟨1, _⟩ => rfl)
  have e28 : idx_main_v27 (idx_main_v28 (ix2 p q)) = ix1 q :=
    funext fun a => Fin.ext (by match a with | ⟨0, _⟩ => rfl)
  rw [val_main_v29_apply, val_main_v26_apply, val_main_v28_apply, val_main_v27_apply, e28]
  simp only [el, er, val_main_v25_apply, pre_apply, val_main_call1_v0_apply, val_main_call1_cst_apply,
    Ideal.addf_def, Ideal.maximumf_def, Ideal.ofBits_def]

/-- The same with the rectifier's constant written as the extended real 0. -/
theorem h_apply_zero (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal)) (p : Fin 50000) (q : Fin 96) :
    val_main_v29 (F := Ideal) x0 x1 x2 x3 x4 x5 x6 x7 x8 (ix2 p q)
      = (∑ k : Fin 96, max ((∑ l : Fin 96, (x0 (ix2 p l) + (val_main_v19 (F := Ideal) x0 x1 x2 x3 x4) (ix2 p l)) * x5 (ix2 l k)) + x6 (ix1 k)) 0
            * x7 (ix2 k q)) + x8 (ix1 q) := by
  rw [h_apply]
  simp only [Ideal.ofBits_zero_f32]

end Cert.ReferenceIdeal.RefValue

end
-- ==== Proof.RefMlp.lean ====
/-
  The perceptron of the other program, applied to the reference's arrays, is the reference's hidden
  activations.

  The other program feeds its perceptron the node features, the aggregated messages, the two weight
  matrices converted to a narrower float format, and the two biases viewed as 1 x 96 rows.  At the ideal
  reading a conversion between float formats is the identity, and the row view of a vector read at (0, k)
  is the vector at k (same row-major position), so entry (p, q) of the perceptron is

    (∑ k, max ((∑ l, (x (p, l) + A (p, l)) * W1 (l, k)) + b1 k) 0 * W2 (k, q)) + b2 q,

  which is what the reference's two matrix products, bias additions and rectifier compute.
-/
import proofs.«151547_j68332929679679_2_alg».proof.Proof.RefHidden
import proofs.«151547_j68332929679679_2_alg».proof.Proof.MlpRegion

noncomputable section

namespace Cert.ReferenceIdeal.RefValue

open Idealize.ShloMosaic Idealize.ShloMosaic.ValueIdx Cert.ReferenceIdeal Cert.ReferenceIdeal.Read
open scoped BigOperators

variable [Cert.ReferenceIdeal.Facts]

/-- The row view of a 96-vector, read at row 0, column `k`, is the vector at `k`. -/
theorem row_apply (v : (⟨S96, .f32⟩ : BufTy).Contents (Elt Ideal)) (hs : Cert.KernelIdeal.S96.ShapeCasts Cert.KernelIdeal.S1x96) (k : Fin 96) :
    shapeCast Cert.KernelIdeal.S1x96 v hs (ix2 (0 : Fin 1) k) = v (ix1 k) :=
  shapeCast_apply v hs (ix2 (0 : Fin 1) k) (ix1 k) (by
    rw [Shape.rowMajor_val_one, Shape.rowMajor_val_two]
    show k.val = (0 : Fin 1).val * 96 + k.val
    simp)

/-- The perceptron of the reference's arrays (weights converted, biases as rows) is the reference's h. -/
theorem hidden_eq (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal))
    (hb : FTy.bits .bf16 < FTy.bits .f32) (hs : Cert.KernelIdeal.S96.ShapeCasts Cert.KernelIdeal.S1x96) :
    Cert.KernelIdeal.Mlp.hidden x0 (val_main_v19 (F := Ideal) x0 x1 x2 x3 x4)
        (truncf .bf16 x5 hb : FVec Ideal S96x96 .bf16) (shapeCast Cert.KernelIdeal.S1x96 x6 hs)
        (truncf .bf16 x7 hb : FVec Ideal S96x96 .bf16) (shapeCast Cert.KernelIdeal.S1x96 x8 hs)
      = val_main_v29 (F := Ideal) x0 x1 x2 x3 x4 x5 x6 x7 x8 := by
  funext j
  obtain ⟨p, q, rfl⟩ : ∃ (p : Fin 50000) (q : Fin 96), j = ix2 p q := ⟨j 0, j 1, eq_ix2 j⟩
  rw [h_apply]
  unfold Cert.KernelIdeal.Mlp.hidden
  rw [row_apply x8 hs]
  simp only [row_apply x6 hs]
  rfl

end Cert.ReferenceIdeal.RefValue

end
-- ==== Proof.RefReal.lean ====
/-
  The reference's hidden activations are real-valued when its float inputs are.

  An extended real is real-valued when it is the image of a real number.  Every operation between the
  inputs and the hidden activations h is built from sums, products, maxima and finite sums of entries
  (a gather reads one entry of its operand, whatever the index; a broadcast reads one entry; a matrix
  product is a finite sum of products; the scatter with an `add` body is an entry of its zero operand
  plus a finite sum of update entries; the rectifier is the maximum with 0), and each of these keeps
  real-valued numbers real-valued.  The integer input (the edge list) only chooses WHICH entries are
  read, so nothing is asked of it.
-/
import proofs.«151547_j68332929679679_2_alg».proof.Proof.Gen.ReferenceIdeal.Read
import proofs.«151547_j68332929679679_2_alg».proof.Proof.RealLaws
import proofs.«151547_j68332929679679_2_alg».proof.Proof.RefHidden

noncomputable section

namespace Cert.ReferenceIdeal.RefValue

open Idealize.ShloMosaic Idealize.ShloMosaic.ValueIdx Cert.ReferenceIdeal Cert.ReferenceIdeal.Read Cert.RealValued
open scoped BigOperators

variable [Cert.ReferenceIdeal.Facts]

/-- The gathered source rows `x[src]`: each entry is an entry of `x`. -/
theorem allReal_v10 (x0 : (⟨S50000x96, .f32⟩ : BufTy).Contents (Elt Ideal)) (x1 : (⟨S2x800000, .i32⟩ : BufTy).Contents (Elt Ideal))
    (h0 : AllReal x0) : AllReal (val_main_v10 (F := Ideal) x0 x1) := by
  intro i
  unfold val_main_v10 Host.gather
  exact h0 _

/-- The edge features times the edge weight matrix: a finite sum of products. -/
theorem allReal_v11 (x2 : (⟨S800000x32, .f32⟩ : BufTy).Contents (Elt Ideal)) (x3 : (⟨S32x96, .f32⟩ : BufTy).Contents (Elt Ideal))
    (h2 : AllReal x2) (h3 : AllReal x3) : AllReal (val_main_v11 (F := Ideal) x2 x3) := by
  intro i
  rw [val_main_v11_apply]
  exact IsReal.sum _ _ fun k _ => (h2 _).mul (h3 _)

/-- The messages `relu (x[src] + edge_attr @ We + be)`. -/
theorem allReal_v16 (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal))
    (h0 : AllReal x0) (h2 : AllReal x2) (h3 : AllReal x3) (h4 : AllReal x4) :
    AllReal (val_main_v16 (F := Ideal) x0 x1 x2 x3 x4) := by
  intro i
  rw [val_main_v16_apply, val_main_v15_apply, val_main_v12_apply, val_main_v14_apply, val_main_v13_apply,
    val_main_call0_v0_apply, val_main_call0_cst_apply, Ideal.maximumf_def, Ideal.addf_def, Ideal.addf_def,
    Ideal.ofBits_def, ofBits_zero]
  exact (((allReal_v10 x0 x1 h0 i).add (allReal_v11 x2 x3 h2 h3 i)).add (h4 _)).max isReal_zero

/-- The zero array the messages are accumulated into. -/
theorem allReal_v17 : AllReal (val_main_v17 (F := Ideal)) := by
  intro i
  rw [val_main_v17_apply, val_main_cst_apply, Ideal.ofBits_def, ofBits_zero]
  exact isReal_zero

/-- The scatter with an `add` body keeps real-valued arrays real-valued, at any shapes and dimension numbers:
    each entry of the result is an entry of the operand plus a finite sum of entries of the updates. -/
theorem allReal_hostScatterAdd {s si su : Shape} (d : ScatterDims s si su) {w : Nat} (x : s.Idx → EReal) (idx : IVec si w)
    (upd : su.Idx → EReal) (hx : AllReal x) (hu : AllReal upd) : AllReal (Ideal.hostScatterAdd d x idx upd) := by
  intro i
  unfold Ideal.hostScatterAdd
  exact (hx i).add (IsReal.sum _ _ fun j _ => hu j)

/-- The aggregated messages: each entry is an entry of the zero array plus a finite sum of message entries. -/
theorem allReal_v19 (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal))
    (h0 : AllReal x0) (h2 : AllReal x2) (h3 : AllReal x3) (h4 : AllReal x4) :
    AllReal (val_main_v19 (F := Ideal) x0 x1 x2 x3 x4) :=
  allReal_hostScatterAdd scatter_S50000x96_S800000x1_S800000x96_1_0_0_1 (val_main_v17 (F := Ideal)) (val_main_v18 (F := Ideal) x1)
    (val_main_v16 (F := Ideal) x0 x1 x2 x3 x4) allReal_v17 (allReal_v16 x0 x1 x2 x3 x4 h0 h2 h3 h4)

/-- The hidden activations `relu ((x + aggr) @ W1 + b1) @ W2 + b2` are real-valued. -/
theorem allReal_v29 (x0 : (⟨S50000x96, .f32⟩ : BufTy).Contents (Elt Ideal)) (x1 : (⟨S2x800000, .i32⟩ : BufTy).Contents (Elt Ideal)) (x2 : (⟨S800000x32, .f32⟩ : BufTy).Contents (Elt Ideal)) (x3 : (⟨S32x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal)) :
    AllReal x0 → AllReal x2 → AllReal x3 → AllReal x4 → AllReal x5 → AllReal x6 → AllReal x7 → AllReal x8 →
      AllReal (val_main_v29 (F := Ideal) x0 x1 x2 x3 x4 x5 x6 x7 x8) := by
  intro h0 h2 h3 h4 h5 h6 h7 h8 i
  obtain ⟨p, q, rfl⟩ : ∃ (p : Fin 50000) (q : Fin 96), i = ix2 p q := ⟨i 0, i 1, eq_ix2 i⟩
  rw [h_apply_zero]
  have hA := allReal_v19 x0 x1 x2 x3 x4 h0 h2 h3 h4
  exact (IsReal.sum _ _ fun k _ =>
    (((IsReal.sum _ _ fun l _ => ((h0 _).add (hA _)).mul (h5 _)).add (h6 _)).max isReal_zero).mul (h7 _)).add (h8 _)

end Cert.ReferenceIdeal.RefValue

end
-- ==== Proof.PreReal.lean ====
/-
  From the precondition to real-valued inputs.

  The precondition is the conjunction, over the ten float inputs, of "every entry has absolute value below
  +∞".  An extended real whose absolute value `max x (-x)` is below `⊤` is neither infinity, so it is the image
  of a real number.  Read back through the conjunction and through each reduction by `and`, the precondition
  says every entry of every float input is real-valued.
-/
import proofs.«151547_j68332929679679_2_alg».proof.Pre_finite_inputs
import proofs.«151547_j68332929679679_2_alg».proof.Proof.Gen.Pre_finite_inputs
import proofs.«151547_j68332929679679_2_alg».proof.Proof.RealLaws
import Idealize.ShloMosaic.Lib.ReduceAll
import Idealize.ShloMosaic.Lib.ValueIdx

noncomputable section

namespace Cert.RealValued

open Idealize.ShloMosaic
open Cert.Pre_finite_inputs

/-- A shape of rank 0 has one index. -/
instance subsingleton_S_ : Subsingleton S_.Idx := ⟨fun a b => funext fun d => d.elim0⟩

/-- The pattern `0x7F800000` (exponent all ones, significand zero, sign `+`) is `+∞`. -/
theorem ofBits_inf : Ideal.ofBits .f32 0x7F800000#32 = ⊤ := by
  simp [Ideal.ofBits, Ideal.ieee]

/-- An extended real whose absolute value is below `+∞` is real-valued: at `⊥` and at `⊤` the absolute value is `⊤`. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One `jnp.all(|x| < +inf)` of the precondition: the reduction by `and` of the comparison being 1 makes every
    entry of `x` real-valued. -/
theorem allReal_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1) : AllReal x := by
  intro i
  have hi := Host.reduce_andi_all _ _ hr hu _ e i
  exact isReal_of_abs_lt_inf (x i) hi

/-- The precondition, read back: every entry of each of the ten float inputs is real-valued.  (The second argument
    is the integer edge table, of which the precondition says nothing.) -/
theorem inputs_real [Cert.Pre_finite_inputs.Facts]
    (x0 : FVec Ideal S50000x96 .f32) (x1 : IVec S2x800000 32) (x2 : FVec Ideal S800000x32 .f32)
    (x3 : FVec Ideal S32x96 .f32) (x4 : FVec Ideal S96 .f32) (x5 : FVec Ideal S96x96 .f32)
    (x6 : FVec Ideal S96 .f32) (x7 : FVec Ideal S96x96 .f32) (x8 : FVec Ideal S96 .f32)
    (x9 : FVec Ideal S96 .f32) (x10 : FVec Ideal S96 .f32)
    (h : Cert.Pre_finite_inputs.fn (F := Ideal) x0 x1 x2 x3 x4 x5 x6 x7 x8 x9 x10 = fun _ => 1#1) :
    AllReal x0 ∧ AllReal x2 ∧ AllReal x3 ∧ AllReal x4 ∧ AllReal x5 ∧ AllReal x6 ∧ AllReal x7 ∧ AllReal x8
      ∧ AllReal x9 ∧ AllReal x10 := by
  have h0 := congrFun h ValueIdx.ix0
  dsimp only [fn, fn_part1, fn_part2] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨allReal_of_all _ _ _ x0 e0, allReal_of_all _ _ _ x2 e2, allReal_of_all _ _ _ x3 e3,
    allReal_of_all _ _ _ x4 e4, allReal_of_all _ _ _ x5 e5, allReal_of_all _ _ _ x6 e6,
    allReal_of_all _ _ _ x7 e7, allReal_of_all _ _ _ x8 e8, allReal_of_all _ _ _ x9 e9,
    allReal_of_all _ _ _ x10 e10⟩

end Cert.RealValued

end
-- ==== Proof.Bridge.lean ====
/-
  The two results are one array.

  Kernel side (KernelValue): at row p, column q the result is the normalisation of `h` — the perceptron of node
  features plus aggregated messages — by the column mean μ = ∑ₙ h[n,q] / 50000 and the column variance computed
  as (∑ₙ h[n,q]²) / 50000 − μ².  Reference side (the generated reading of the reference): the same normalisation
  of the same `h` (the kernel's aggregated messages are the reference's, one sum regrouped; its perceptron is the
  reference's, a block product being the plain sum of products over the extended reals), with the variance
  computed as ∑ₙ (h[n,q] − μ)² / 50000.  The two variances agree for REAL-valued `h`, since 50000 is the number
  of rows:  ∑(hₙ − μ)² = ∑hₙ² − 2μ∑hₙ + 50000·μ²  and  ∑hₙ = 50000·μ.  And `h` is real-valued because every input
  is (the precondition) and every operation that produces it is built from sums, products and maxima.
-/
import proofs.«151547_j68332929679679_2_alg».proof.Proof.KernelValue
import proofs.«151547_j68332929679679_2_alg».proof.Proof.RefNorm
import proofs.«151547_j68332929679679_2_alg».proof.Proof.RefBridge
import proofs.«151547_j68332929679679_2_alg».proof.Proof.RefMlp
import proofs.«151547_j68332929679679_2_alg».proof.Proof.RefReal
import proofs.«151547_j68332929679679_2_alg».proof.Proof.PreReal
import proofs.«151547_j68332929679679_2_alg».proof.Defs

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.RealValued
open Cert.ReferenceIdeal.Read (val_main_v29 val_main_v55 val_main_v19)

variable (m : (ℓ : Loc nD τ sig) → Buf (Elt Ideal) ℓ) (ρ : Dev nD → PrngReg)

/-- What the first region leaves is the reference's pre-normalisation array, of the same arguments. -/
theorem hidden_eq_ref (c : Dev nD) :
    Fold.hk m ρ c = val_main_v29 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  show V4 m ρ c main_v24 = _
  rw [Fold.entry1_h, Fold.entry0_x, Fold.entry0_aggr, Fold.entry0_w1, Fold.entry0_w2, Fold.entry0_b1, Fold.entry0_b2]
  exact Cert.ReferenceIdeal.RefValue.hidden_eq _ _ _ _ _ _ _ _ _ _ _

/-- Under the precondition the reference's pre-normalisation array is real-valued. -/
theorem hidden_real (hpre : Cert.Pre_KernelIdeal (hPre_finite_inputs := Cert.Pre_finite_inputs.Gen.facts) m) (c : Dev nD) :
    AllReal (val_main_v29 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8))) := by
  obtain ⟨h0, h2, h3, h4, h5, h6, h7, h8, -, -⟩ := Cert.RealValued.inputs_real _ _ _ _ _ _ _ _ _ _ _ (hpre c)
  exact Cert.ReferenceIdeal.RefValue.allReal_v29 _ _ _ _ _ _ _ _ _ h0 h2 h3 h4 h5 h6 h7 h8

/-- THE RESULTS AGREE: under the precondition the kernel's result array is the reference's result, of the same
    arguments. -/
theorem result_eq (hpre : Cert.Pre_KernelIdeal (hPre_finite_inputs := Cert.Pre_finite_inputs.Gen.facts) m) (c : Dev nD) :
    W7 m ρ c (Proc.devRef .tc main_v38) = val_main_v55 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) := by
  funext j
  obtain ⟨p, q, rfl⟩ : ∃ (p : Fin 50000) (q : Fin 96), j = ix2 p q := ⟨j 0, j 1, eq_ix2 j⟩
  rw [Fold.result_apply, Cert.ReferenceIdeal.RefValue.out_apply, hidden_eq_ref]
  unfold Fold.colMean Fold.colVar
  exact Cert.ReferenceIdeal.RefValue.norm_bridge _ (hidden_real m hpre c) _ _ p q

end Cert.Bridge

end
-- ==== Proof.lean ====
/-
  A graph-network layer with batch normalisation: the kernel and its reference compute one function.

  Both programs take node features x [50000, 96], an edge table (source and destination node of 800000 edges),
  edge attributes, an edge projection (Wₑ, bₑ), a two-layer perceptron (W₁, b₁, W₂, b₂) and a scale and shift
  (γ, β), and compute
      a   = for each node, the sum over its incoming edges of  relu(x[source] + attributes · Wₑ + bₑ)
      h   = relu((x + a) · W₁ + b₁) · W₂ + b₂
      out = relu((h − mean) · (var + ε)^(−1/2) · γ + β)          mean, var: over the 50000 rows, per column.
  The kernel computes `a` on the host exactly as the reference does (one sum grouped differently), `h` in a first
  kernel over ten blocks of 5000 rows, the column sums of `h` and of `h²` in a second kernel that accumulates over
  the ten blocks, mean = sum / 50000 and var = (sum of squares) / 50000 − mean² on the host, and `out` in a third
  kernel over the ten blocks.  The reference computes var = (sum of (h − mean)²) / 50000.

  Over the extended reals a change of float format is the identity, a block product into a zero accumulator is
  the sum of products, a lane sum and the host's sum are the finite sum, and sums may be regrouped freely, so the
  only difference left is the variance: "mean of squares minus square of mean" against "mean of squared
  deviations".  These agree for real numbers because the divisor 50000 is the number of rows; they can differ
  at infinities, and the precondition (every float input finite) is what excludes those: every stage up to `h`
  is built from sums, products and maxima of real-valued entries.

  Modules: RealValued, RealLaws (the law and the closure of real-valuedness), PreReal (precondition to
  real-valued inputs); RefNorm, RefHidden, RefReal, RefBridge (the reference read at an index); KernelRun (the
  run with every buffer named), MlpPayload / MlpRegion, StatsPayload / StatsRegion, NormPayload / NormRegion
  (each region's output array as a function of its entry arrays), HostStretches (the host operations between
  them), KernelValue (the result at an index), Bridge (the two results are one array).
-/
import proofs.«151547_j68332929679679_2_alg».proof.Defs
import proofs.«151547_j68332929679679_2_alg».proof.Proof.Gen.Kernel
import proofs.«151547_j68332929679679_2_alg».proof.Proof.Gen.Kernel.Skeleton
import proofs.«151547_j68332929679679_2_alg».proof.Proof.Gen.Kernel.Launch
import proofs.«151547_j68332929679679_2_alg».proof.Proof.Gen.Kernel.Points
import proofs.«151547_j68332929679679_2_alg».proof.Proof.Gen.Kernel.Frame
import proofs.«151547_j68332929679679_2_alg».proof.Proof.Gen.KernelIdeal
import proofs.«151547_j68332929679679_2_alg».proof.Proof.Gen.KernelIdeal.Skeleton
import proofs.«151547_j68332929679679_2_alg».proof.Proof.Gen.KernelIdeal.Launch
import proofs.«151547_j68332929679679_2_alg».proof.Proof.Gen.KernelIdeal.Points
import proofs.«151547_j68332929679679_2_alg».proof.Proof.Gen.KernelIdeal.Frame
import proofs.«151547_j68332929679679_2_alg».proof.Proof.Gen.ReferenceIdeal
import proofs.«151547_j68332929679679_2_alg».proof.Proof.Gen.ReferenceIdeal.Run
import proofs.«151547_j68332929679679_2_alg».proof.Proof.Gen.ReferenceIdeal.Read
import proofs.«151547_j68332929679679_2_alg».proof.Proof.Gen.Pre_finite_inputs
import proofs.«151547_j68332929679679_2_alg».proof.Proof.KernelRun
import proofs.«151547_j68332929679679_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without fault and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, under the precondition, both idealized programs run and end with
    the same result array: the kernel's is the last valuation of its fold at the result buffer (KernelRun), the
    reference's its generated term, and the two are one array (Bridge). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W7 m ρ c (Proc.devRef .tc Cert.KernelIdeal.main_v38), ?_, ?_⟩
  · exact (θ_run Cert.KernelIdeal.defs _ _).mono (fun r h c =>
      ⟨h c _ (Cert.KernelIdeal.Gen.mem_uc Cert.KernelIdeal.main_v38 (by decide)),
       (h c _ (Cert.KernelIdeal.Gen.mem_uc Cert.KernelIdeal.main_arg0 (by decide))).trans (Cert.KernelIdeal.Gen.W7_main_arg0 m ρ c),
       (h c _ (Cert.KernelIdeal.Gen.mem_uc Cert.KernelIdeal.main_arg1 (by decide))).trans (Cert.KernelIdeal.Gen.W7_main_arg1 m ρ c),
       (h c _ (Cert.KernelIdeal.Gen.mem_uc Cert.KernelIdeal.main_arg2 (by decide))).trans (Cert.KernelIdeal.Gen.W7_main_arg2 m ρ c),
       (h c _ (Cert.KernelIdeal.Gen.mem_uc Cert.KernelIdeal.main_arg3 (by decide))).trans (Cert.KernelIdeal.Gen.W7_main_arg3 m ρ c),
       (h c _ (Cert.KernelIdeal.Gen.mem_uc Cert.KernelIdeal.main_arg4 (by decide))).trans (Cert.KernelIdeal.Gen.W7_main_arg4 m ρ c),
       (h c _ (Cert.KernelIdeal.Gen.mem_uc Cert.KernelIdeal.main_arg5 (by decide))).trans (Cert.KernelIdeal.Gen.W7_main_arg5 m ρ c),
       (h c _ (Cert.KernelIdeal.Gen.mem_uc Cert.KernelIdeal.main_arg6 (by decide))).trans (Cert.KernelIdeal.Gen.W7_main_arg6 m ρ c),
       (h c _ (Cert.KernelIdeal.Gen.mem_uc Cert.KernelIdeal.main_arg7 (by decide))).trans (Cert.KernelIdeal.Gen.W7_main_arg7 m ρ c),
       (h c _ (Cert.KernelIdeal.Gen.mem_uc Cert.KernelIdeal.main_arg8 (by decide))).trans (Cert.KernelIdeal.Gen.W7_main_arg8 m ρ c),
       (h c _ (Cert.KernelIdeal.Gen.mem_uc Cert.KernelIdeal.main_arg9 (by decide))).trans (Cert.KernelIdeal.Gen.W7_main_arg9 m ρ c),
       (h c _ (Cert.KernelIdeal.Gen.mem_uc Cert.KernelIdeal.main_arg10 (by decide))).trans (Cert.KernelIdeal.Gen.W7_main_arg10 m ρ c)⟩)
      (Cert.KernelIdeal.FoldRun.run_fold m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq]
    obtain ⟨e0, e1, e2, e3, e4, e5, e6, e7, e8, e9, e10⟩ := hagree c
    rw [e0, e1, e2, e3, e4, e5, e6, e7, e8, e9, e10]
    exact (Cert.Bridge.result_eq m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
